-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x84x512x512 : Shape := ⟨4, ![4, 84, 512, 512]⟩
abbrev S_ : Shape := ⟨0, ![]⟩

class Facts : Prop where
  bcast_S_S4x84x512x512 : S_.BroadcastsInDim S4x84x512x512 (![] : Fin 0 → Fin S4x84x512x512.rank)
  reducesTo_S4x84x512x512_S_d0_1_2_3 : S4x84x512x512.ReducesTo [0, 1, 2, 3] S_
  h_S_ : 0 < S_.numel

variable [Facts]

def fn {F : FTy → Type} [FloatOps F] (main_arg0 : FVec F S4x84x512x512 .f32) : IVec S_ 1 :=
  let main_v0 : FVec F S4x84x512x512 .f32 := Host.absf main_arg0
  let main_cst : FVec F S_ .f32 := constant S_ .f32 0x7F800000#32
  let main_v1 : FVec F S4x84x512x512 .f32 := broadcastInDim S4x84x512x512 ![] bcast_S_S4x84x512x512 main_cst
  let main_v2 : IVec S4x84x512x512 1 := cmpf .olt main_v0 main_v1
  let main_c : IVec S_ 1 := constantI S_ 1 1#1
  let main_v3 : IVec S_ 1 := (fun x v => Host.reduce IntOp.andi x v reducesTo_S4x84x512x512_S_d0_1_2_3 h_S_) main_v2 main_c
  main_v3
-- ==== Kernel.lean ====
abbrev S4x84x512x512 : Shape := ⟨4, ![4, 84, 512, 512]⟩
abbrev S4x512x512 : Shape := ⟨3, ![4, 512, 512]⟩
abbrev S1x84x64x512 : Shape := ⟨4, ![1, 84, 64, 512]⟩
abbrev S1x64x512 : Shape := ⟨3, ![1, 64, 512]⟩
abbrev S1x80x64x512 : Shape := ⟨4, ![1, 80, 64, 512]⟩
abbrev S80x64x512 : Shape := ⟨3, ![80, 64, 512]⟩
abbrev S64x512 : Shape := ⟨2, ![64, 512]⟩
abbrev S_ : Shape := ⟨0, ![]⟩
abbrev S4x514x514 : Shape := ⟨3, ![4, 514, 514]⟩
abbrev S1x84x32x512 : Shape := ⟨4, ![1, 84, 32, 512]⟩
abbrev S1x514x514 : Shape := ⟨3, ![1, 514, 514]⟩
abbrev S514x514 : Shape := ⟨2, ![514, 514]⟩
abbrev S34x514 : Shape := ⟨2, ![34, 514]⟩
abbrev S32x512 : Shape := ⟨2, ![32, 512]⟩
abbrev S1x1x32x512 : Shape := ⟨4, ![1, 1, 32, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x84x512x512, .f32⟩
  | .hbm, ⟨1, _⟩ => ⟨S4x512x512, .f32⟩
  | .hbm, ⟨2, _⟩ => ⟨S_, .i32⟩
  | .hbm, ⟨3, _⟩ => ⟨S_, .f32⟩
  | .hbm, ⟨4, _⟩ => ⟨S4x514x514, .f32⟩
  | .hbm, ⟨5, _⟩ => ⟨S4x84x512x512, .f32⟩
  | .local _ .vmem, ⟨0, _⟩ => ⟨S1x84x64x512, .f32⟩
  | .local _ .vmem, ⟨1, _⟩ => ⟨S1x84x64x512, .f32⟩
  | .local _ .vmem, ⟨2, _⟩ => ⟨S1x64x512, .f32⟩
  | .local _ .vmem, ⟨3, _⟩ => ⟨S1x64x512, .f32⟩
  | .local _ .vmem, ⟨4, _⟩ => ⟨S1x84x32x512, .f32⟩
  | .local _ .vmem, ⟨5, _⟩ => ⟨S1x84x32x512, .f32⟩
  | .local _ .vmem, ⟨6, _⟩ => ⟨S1x514x514, .f32⟩
  | .local _ .vmem, ⟨7, _⟩ => ⟨S1x514x514, .f32⟩
  | .local _ .vmem, ⟨8, _⟩ => ⟨S1x84x32x512, .f32⟩
  | .local _ .vmem, ⟨9, _⟩ => ⟨S1x84x32x512, .f32⟩
  | _, _ => ⟨S4x84x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x84x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 16], ![false, false]⟩

def k1_mult1 (i : grid1.Coords) : BitVec 32 :=
  let arg1 : BitVec 32 := BitVec.ofNat 32 (i 1).val
  let c32_i32 : BitVec 32 := 32#32
  let v0 : BitVec 32 := Scalar.muli arg1 c32_i32
  v0
def k1_off1 (i : grid1.Coords) : Fin 2 → Nat :=
  let arg1 : BitVec 32 := BitVec.ofNat 32 (i 1).val
  let c32_i32 : BitVec 32 := 32#32
  let v0 : BitVec 32 := Scalar.muli arg1 c32_i32
  let v1 : BitVec 32 := v0
  let v4 : Index := Scalar.indexCast v1
  let c0 : Index := 0#32
  ![v4.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x84x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x514x514 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x84x32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x84x64x512_S1x84x64x512_0_0_0_0 : ∀ a, (![0, 0, 0, 0] : Fin 4 → Nat) a + S1x84x64x512.size a ≤ S1x84x64x512.size a
  h_S1x84x64x512 : 0 < S1x84x64x512.numel
  slices_S1x84x64x512_o0_0_0_0_S1x80x64x512 : S1x84x64x512.Slices ![0, 0, 0, 0] S1x80x64x512
  shapeCasts_S1x80x64x512_S80x64x512 : S1x80x64x512.ShapeCasts S80x64x512
  reduces_S80x64x512_S64x512 : S80x64x512.Reduces [0] S64x512
  shapeCasts_S64x512_S1x64x512 : S64x512.ShapeCasts S1x64x512
  inb_S1x64x512_S1x64x512_0_0_0 : ∀ a, (![0, 0, 0] : Fin 3 → Nat) a + S1x64x512.size a ≤ S1x64x512.size a
  h_S1x64x512 : 0 < S1x64x512.numel
  pads_S4x512x512_S4x514x514_000_110_110 : S4x512x512.Pads (![0, 1, 1] : Fin 3 → Nat) ![0, 1, 1] ![0, 0, 0] S4x514x514
  h_S_ : 0 < S_.numel
  inb_S1x514x514_S1x514x514_0_0_0 : ∀ a, (![0, 0, 0] : Fin 3 → Nat) a + S1x514x514.size a ≤ S1x514x514.size a
  squeezes_S1x514x514_S514x514 : S1x514x514.Squeezes S514x514
  h_S34x514 : 0 < S34x514.numel
  shapeCasts_S34x514_S34x514 : S34x514.ShapeCasts S34x514
  slices_S34x514_o1_1_S32x512 : S34x514.Slices ![1, 1] S32x512
  slices_S34x514_o0_0_S32x512 : S34x514.Slices ![0, 0] S32x512
  slices_S34x514_o0_1_S32x512 : S34x514.Slices ![0, 1] S32x512
  slices_S34x514_o0_2_S32x512 : S34x514.Slices ![0, 2] S32x512
  slices_S34x514_o1_0_S32x512 : S34x514.Slices ![1, 0] S32x512
  slices_S34x514_o1_2_S32x512 : S34x514.Slices ![1, 2] S32x512
  slices_S34x514_o2_0_S32x512 : S34x514.Slices ![2, 0] S32x512
  slices_S34x514_o2_1_S32x512 : S34x514.Slices ![2, 1] S32x512
  slices_S34x514_o2_2_S32x512 : S34x514.Slices ![2, 2] S32x512
  natLt_1_32 : 1 < 32
  shapeCasts_S32x512_S1x1x32x512 : S32x512.ShapeCasts S1x1x32x512
  shapeCasts_S1x1x32x512_S1x1x32x512 : S1x1x32x512.ShapeCasts S1x1x32x512
  broadcasts_S1x1x32x512_S1x84x32x512 : S1x1x32x512.Broadcasts S1x84x32x512
  inb_S1x84x32x512_S1x84x32x512_0_0_0_0 : ∀ a, (![0, 0, 0, 0] : Fin 4 → Nat) a + S1x84x32x512.size a ≤ S1x84x32x512.size a
  h_S1x84x32x512 : 0 < S1x84x32x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x84x64x512.size a ≤ S4x84x512x512.size a
  hwx0_0 : ∀ i : grid0.Coords, EltTy.bits .f32 = 32 ∨ (Rect.block (s := S4x84x512x512) S1x84x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x512x512.size a
  hwx0_1 : ∀ i : grid0.Coords, EltTy.bits .f32 = 32 ∨ (Rect.block (s := S4x512x512) S1x64x512.size (cc0_transform_1 i) (hinb0_1 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S34x514.size a ≤ S514x514.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x84x32x512.size a ≤ S4x84x512x512.size a
  hwx1_0 : ∀ i : grid1.Coords, EltTy.bits .f32 = 32 ∨ (Rect.block (s := S4x84x512x512) S1x84x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x514x514.size a ≤ S4x514x514.size a
  hwx1_1 : ∀ i : grid1.Coords, EltTy.bits .f32 = 32 ∨ (Rect.block (s := S4x514x514) S1x514x514.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x84x32x512.size a ≤ S4x84x512x512.size a
  hwx1_2 : ∀ i : grid1.Coords, EltTy.bits .f32 = 32 ∨ (Rect.block (s := S4x84x512x512) S1x84x32x512.size (cc1_transform_2 i) (hinb1_2 i)).WholeWords (EltTy.packing .f32)

variable [Facts₀]

abbrev win0_0 : Pipeline.Window sig grid0 :=
  Pipeline.Window.ofSpec (Memref.whole main_arg0) S1x84x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x84x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x514x514.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x84x32x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x84x512x512 : Shape := ⟨4, ![4, 84, 512, 512]⟩
abbrev S4x80x512x512 : Shape := ⟨4, ![4, 80, 512, 512]⟩
abbrev S_ : Shape := ⟨0, ![]⟩
abbrev S4x512x512 : Shape := ⟨3, ![4, 512, 512]⟩
abbrev S4x514x514 : Shape := ⟨3, ![4, 514, 514]⟩
abbrev S4x1x512x512 : Shape := ⟨4, ![4, 1, 512, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x84x512x512, .f32⟩
  | .hbm, ⟨1, _⟩ => ⟨S4x80x512x512, .f32⟩
  | .hbm, ⟨2, _⟩ => ⟨S_, .f32⟩
  | .hbm, ⟨3, _⟩ => ⟨S4x512x512, .f32⟩
  | .hbm, ⟨4, _⟩ => ⟨S_, .i32⟩
  | .hbm, ⟨5, _⟩ => ⟨S_, .f32⟩
  | .hbm, ⟨6, _⟩ => ⟨S4x514x514, .f32⟩
  | .hbm, ⟨7, _⟩ => ⟨S_, .i1⟩
  | .hbm, ⟨8, _⟩ => ⟨S4x512x512, .i1⟩
  | .hbm, ⟨9, _⟩ => ⟨S4x512x512, .f32⟩
  | .hbm, ⟨10, _⟩ => ⟨S4x512x512, .i1⟩
  | .hbm, ⟨11, _⟩ => ⟨S4x512x512, .i1⟩
  | .hbm, ⟨12, _⟩ => ⟨S4x512x512, .f32⟩
  | .hbm, ⟨13, _⟩ => ⟨S4x512x512, .i1⟩
  | .hbm, ⟨14, _⟩ => ⟨S4x512x512, .i1⟩
  | .hbm, ⟨15, _⟩ => ⟨S4x512x512, .f32⟩
  | .hbm, ⟨16, _⟩ => ⟨S4x512x512, .i1⟩
  | .hbm, ⟨17, _⟩ => ⟨S4x512x512, .i1⟩
  | .hbm, ⟨18, _⟩ => ⟨S4x512x512, .f32⟩
  | .hbm, ⟨19, _⟩ => ⟨S4x512x512, .i1⟩
  | .hbm, ⟨20, _⟩ => ⟨S4x512x512, .i1⟩
  | .hbm, ⟨21, _⟩ => ⟨S4x512x512, .f32⟩
  | .hbm, ⟨22, _⟩ => ⟨S4x512x512, .i1⟩
  | .hbm, ⟨23, _⟩ => ⟨S4x512x512, .i1⟩
  | .hbm, ⟨24, _⟩ => ⟨S4x512x512, .f32⟩
  | .hbm, ⟨25, _⟩ => ⟨S4x512x512, .i1⟩
  | .hbm, ⟨26, _⟩ => ⟨S4x512x512, .i1⟩
  | .hbm, ⟨27, _⟩ => ⟨S4x512x512, .f32⟩
  | .hbm, ⟨28, _⟩ => ⟨S4x512x512, .i1⟩
  | .hbm, ⟨29, _⟩ => ⟨S4x512x512, .i1⟩
  | .hbm, ⟨30, _⟩ => ⟨S4x512x512, .f32⟩
  | .hbm, ⟨31, _⟩ => ⟨S4x512x512, .i1⟩
  | .hbm, ⟨32, _⟩ => ⟨S4x512x512, .i1⟩
  | .hbm, ⟨33, _⟩ => ⟨S4x1x512x512, .i1⟩
  | .hbm, ⟨34, _⟩ => ⟨S4x1x512x512, .f32⟩
  | .hbm, ⟨35, _⟩ => ⟨S4x84x512x512, .f32⟩
  | .hbm, ⟨36, _⟩ => ⟨S4x84x512x512, .f32⟩
  | _, _ => ⟨S4x84x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]

class Facts₀ : Prop where
  slices_S4x84x512x512_S4x80x512x512_0_0_0_0 : S4x84x512x512.Slices ![0, 0, 0, 0] S4x80x512x512
  reducesTo_S4x80x512x512_S4x512x512_d1 : S4x80x512x512.ReducesTo [1] S4x512x512
  h_S_ : 0 < S_.numel
  pads_S4x512x512_S4x514x514_000_110_110 : S4x512x512.Pads (![0, 1, 1] : Fin 3 → Nat) ![0, 1, 1] ![0, 0, 0] S4x514x514
  bcast_S_S4x512x512 : S_.BroadcastsInDim S4x512x512 (![] : Fin 0 → Fin S4x512x512.rank)
  slices_S4x514x514_S4x512x512_0_0_0 : S4x514x514.Slices ![0, 0, 0] S4x512x512
  slices_S4x514x514_S4x512x512_0_0_1 : S4x514x514.Slices ![0, 0, 1] S4x512x512
  slices_S4x514x514_S4x512x512_0_0_2 : S4x514x514.Slices ![0, 0, 2] S4x512x512
  slices_S4x514x514_S4x512x512_0_1_0 : S4x514x514.Slices ![0, 1, 0] S4x512x512
  slices_S4x514x514_S4x512x512_0_1_2 : S4x514x514.Slices ![0, 1, 2] S4x512x512
  slices_S4x514x514_S4x512x512_0_2_0 : S4x514x514.Slices ![0, 2, 0] S4x512x512
  slices_S4x514x514_S4x512x512_0_2_1 : S4x514x514.Slices ![0, 2, 1] S4x512x512
  slices_S4x514x514_S4x512x512_0_2_2 : S4x514x514.Slices ![0, 2, 2] S4x512x512
  bcast_S4x512x512_S4x1x512x512_0_2_3 : S4x512x512.BroadcastsInDim S4x1x512x512 (![0, 2, 3] : Fin 3 → Fin S4x1x512x512.rank)
  bcast_S4x1x512x512_S4x84x512x512_0_1_2_3 : S4x1x512x512.BroadcastsInDim S4x84x512x512 (![0, 1, 2, 3] : Fin 4 → Fin S4x84x512x512.rank)

variable [Facts₀]

class Facts : Prop extends Facts₀ where

variable [Facts]
-- ==== Proof.Bits.MaxBody.lean ====
/-
  The first kernel, one grid point at a time. At point (b, h) it is handed the block of the input holding batch b,
  all 84 channels, rows 64h … 64h+63 and every column, and it stores into its output block (batch b, the same rows) the
  maximum over the first 80 channels, started from minus infinity. What the output's staging buffer holds afterwards
  is therefore one function of the input block; the input's buffer is left as found. This module states that
  function, proves the body computes it, and packages it as the pipeline's per-point data and obligation.
-/
import proofs.«127351_j63196148794003_1_alg».proof.Proof.Gen.Kernel.Launch
import proofs.«127351_j63196148794003_1_alg».proof.Proof.Gen.Kernel.Skeleton
import proofs.«127351_j63196148794003_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the first kernel at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point: the body never writes it, so what is there is
    what a fetch put there, at this point or at an earlier one with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles at offset zero. -/
abbrev rIn0 : Rect S1x84x64x512 := Rect.unit (s := S1x84x64x512) ![0, 0, 0, 0] S1x84x64x512.size inb_S1x84x64x512_S1x84x64x512_0_0_0_0
abbrev rOut0 : Rect S1x64x512 := Rect.unit (s := S1x64x512) ![0, 0, 0] S1x64x512.size inb_S1x64x512_S1x64x512_0_0_0

/-- What the body leaves in the output's staging buffer: its one store, of the channel maximum of the input block. -/
def out0_1 (x0 : Vec F S1x84x64x512 .f32) : Vec F S1x64x512 .f32 :=
  View.canon [⟨rOut0, k0_pay1 (View.ld x0 rIn0)⟩]

/-- That one store covers the buffer. -/
theorem cover0_1 (p0 : Vec F S1x64x512 .f32) (y : S1x64x512.Idx) :
    ∃ pc ∈ ([⟨rOut0, p0⟩] : List (View.Piece (Elt F) S1x64x512 .f32)), y ∈ pc.1.set :=
  View.cover_of_tiled [⟨rOut0, p0⟩] S1x64x512.size (by rfl) y

set_option maxHeartbeats 1000000 in
/-- The body on whole staging buffers, the input's reading `x0` and the output's anything, runs to its end with the
    input's unchanged and the output's reading `out0_1 x0`. -/
theorem sound_kernel0 (c : Dev nD) (E : Set ℕ) (i : grid0.Coords) (arg2 : Memref sig .tc .vmem S1x84x64x512 .f32) (harg2 : arg2.IsWhole)
    (arg3 : Memref sig .tc .vmem S1x64x512 .f32) (harg3 : arg3.IsWhole)
    (x0 : Vec F S1x84x64x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__probs_kernel i arg2 harg2 arg3 harg3) K := by
  simp only [cc0__probs_kernel_eq_skeleton]; unfold cc0__probs_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The first kernel's per-point data on core `c`: the arrays as the region finds them; after the body at point
    `t` the input's buffer at its block and the output's at `out0_1` of that block; nothing else kept or owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation for the first kernel, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.MaskBody.lean ====
/-
  The second kernel, one grid point at a time. At point (b, h) it is handed the block of the input holding batch b,
  all 84 channels, rows 32h … 32h+31 and every column, and the whole zero-padded 514 × 514 table of channel maxima of
  batch b. From the table it takes the 34 × 514 window of padded rows 32h … 32h+33; the entry of that window at
  (1 + r, 1 + c) is the channel maximum at row 32h + r, column c, and the eight entries around it are its
  neighbours. The body keeps a pixel when its maximum is strictly greater than the four neighbours that come before
  it in row-major order and at least the four that come after, and multiplies every channel of the input block by
  that 0/1 factor. What the output's staging buffer holds afterwards is therefore one function of the two input
  blocks and of h; both inputs' buffers are left as found.
-/
import proofs.«127351_j63196148794003_1_alg».proof.Proof.Gen.Kernel.Launch
import proofs.«127351_j63196148794003_1_alg».proof.Proof.Gen.Kernel.Skeleton
import proofs.«127351_j63196148794003_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the second kernel at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input block's staging buffer holds the block at every point (it is fetched at every point and never written). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The padded table's staging buffer holds batch b's table at every point: it is fetched when b changes and, the
    body never writing it, still there at the points in between, whose block index is the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole input (and output) block, the whole padded table, and the 34-row window at rows 32h … 32h+33. -/
abbrev rIn1 : Rect S1x84x32x512 := Rect.unit (s := S1x84x32x512) ![0, 0, 0, 0] S1x84x32x512.size inb_S1x84x32x512_S1x84x32x512_0_0_0_0
abbrev rTab1 : Rect S1x514x514 := Rect.unit (s := S1x514x514) ![0, 0, 0] S1x514x514.size inb_S1x514x514_S1x514x514_0_0_0
abbrev rWin1 (i : grid1.Coords) : Rect S514x514 := Rect.unit (s := S514x514) (k1_off1 i) S34x514.size (k1_off1_inb i)

/-- The 34 × 514 window the body loads: the padded table with its unit leading axis dropped, at the window's rows. -/
def window1 (i : grid1.Coords) (x1 : Vec F S1x514x514 .f32) : Vec F S34x514 .f32 :=
  View.ld (shapeCast S514x514 (View.ld x1 rTab1) (by decide)) (rWin1 i)

/-- What the body leaves in the output's staging buffer: its one store, of the input block times the 0/1 factor. -/
def out1_2 (i : grid1.Coords) (x0 : Vec F S1x84x32x512 .f32) (x1 : Vec F S1x514x514 .f32) : Vec F S1x84x32x512 .f32 :=
  View.canon [⟨rIn1, k1_pay1 (window1 i x1) (View.ld x0 rIn1)⟩]

/-- That one store covers the buffer. -/
theorem cover1_2 (p0 : Vec F S1x84x32x512 .f32) (y : S1x84x32x512.Idx) :
    ∃ pc ∈ ([⟨rIn1, p0⟩] : List (View.Piece (Elt F) S1x84x32x512 .f32)), y ∈ pc.1.set :=
  View.cover_of_tiled [⟨rIn1, p0⟩] S1x84x32x512.size (by rfl) y

set_option maxHeartbeats 1000000 in
/-- The body on whole staging buffers, the inputs' reading `x0` and `x1` and the output's anything, runs to its end
    with the inputs' unchanged and the output's reading `out1_2 i x0 x1`. -/
theorem sound_kernel1 (c : Dev nD) (E : Set ℕ) (i : grid1.Coords)
    (arg2 : Memref sig .tc .vmem S1x84x32x512 .f32) (harg2 : arg2.IsWhole)
    (arg3 : Memref sig .tc .vmem S1x514x514 .f32) (harg3 : arg3.IsWhole)
    (arg4 : Memref sig .tc .vmem S1x84x32x512 .f32) (harg4 : arg4.IsWhole)
    (x0 : Vec F S1x84x32x512 .f32) (x1 : Vec F S1x514x514 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 i x0 x1)) -∗ K ⟨⟩))
      ⊢ wp frame (wpE (defs₀ (F := F)) Variants.none c none) E (cc1__mask_mul_kernel i arg2 harg2 arg3 harg3 arg4 harg4) K := by
  simp only [cc1__mask_mul_kernel_eq_skeleton]; unfold cc1__mask_mul_kernel_skel
  unfold owns
  iintro ⟨⟨%f0, %hf0, H0⟩, ⟨%f1, %hf1, H1⟩, ⟨%d2, %f2, -, H2⟩, Hk⟩
  subst hf0
  subst hf1
  sl_exec
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The second kernel's per-point data on core `c`: the arrays as the region finds them; after the body at point
    `t` each input's buffer at its block and the output's at `out1_2` of the two blocks; nothing else kept or owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both inputs' buffers hold their blocks, so `sound_kernel1` applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the second kernel, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The whole program as four segments in @main's order — the first kernel's region, the constant zero, the padding of
  the table of channel maxima by one zero row and column on every side, the second kernel's region — and what every
  buffer holds at each boundary between them. A region leaves every buffer as it found it except its output array,
  which ends holding what its write-backs leave; a host stretch leaves what its operations compute. Launched from any
  memory with every counter at zero, every weakly fair execution terminates without a fault, the result buffer ends
  at the last boundary's contents and the argument ends as launched.
-/
import proofs.«127351_j63196148794003_1_alg».proof.Proof.Gen.Kernel.Launch
import proofs.«127351_j63196148794003_1_alg».proof.Proof.Gen.Kernel.Skeleton
import proofs.«127351_j63196148794003_1_alg».proof.Proof.Gen.Kernel.Points
import proofs.«127351_j63196148794003_1_alg».proof.Proof.Gen.Kernel.Regions
import proofs.«127351_j63196148794003_1_alg».proof.Proof.Bits.MaxBody
import proofs.«127351_j63196148794003_1_alg».proof.Proof.Bits.MaskBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At launch (the first region's entry). -/
abbrev B0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => B0 m ρ c b
/-- At the first region's exit: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev X1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = X1 m ρ c (Pipeline.arrRef spec0 w) :=
  (B1_arr m ρ c w).symm
theorem hrest0 (c : Dev nD) : ∀ b, b ∉ Finset.univ.image (Pipeline.arrRef spec0) → X1 m ρ c b = E0 m ρ c b :=
  fun b hb => B1_of_ne m ρ c b fun w e => hb (Finset.mem_image.mpr ⟨w, Finset.mem_univ _, e⟩)

/-- After the constant, -/
abbrev B2 : Dev nD → Valuation τ sig (Elt F) := fun c => StableHlo.after hostOps1 (B1 m ρ c)
/-- and after the padding (the second region's entry). -/
abbrev B3 : Dev nD → Valuation τ sig (Elt F) := fun c => StableHlo.after hostOps1_1 (B2 m ρ c)
abbrev E1 : (c : Dev nD) → (b : Ref sig .tc) → Buf (Elt F) ((c : Thread nD τ).loc b) := fun c b => B3 m ρ c b
/-- At the second region's exit. -/
def B4 (c : Dev nD) : Valuation τ sig (Elt F) :=
  Pipeline.withArrays spec1 c (B3 m ρ c) fun w => (dat1 (E1 m ρ) c).arrAt w cfg1.N
theorem B4_arr (c : Dev nD) (w : Fin cfg1.W) :
    B4 m ρ c (Proc.devRef .tc (Pipeline.arrRef spec1 w)) = (dat1 (E1 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem hF1 (c : Dev nD) (w : Fin cfg1.W) : (dat1 (E1 m ρ) c).arrAt w cfg1.N = X4 m ρ c (Pipeline.arrRef spec1 w) :=
  (B4_arr m ρ c w).symm
theorem hrest1 (c : Dev nD) : ∀ b, b ∉ Finset.univ.image (Pipeline.arrRef spec1) → X4 m ρ c b = E1 m ρ c b :=
  fun b hb => B4_of_ne m ρ c b fun w e => hb (Finset.mem_image.mpr ⟨w, Finset.mem_univ _, e⟩)

/-- The argument reaches the second region as launched: the first region only reads it, no host operation writes it. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := StableHlo.after_of_writes_sub hostOps1_1 _ hostOps1_1_writes (r := main_arg0) (by decide)
    _ = B1 m ρ c (Proc.devRef .tc main_arg0) := StableHlo.after_of_writes_sub hostOps1 _ hostOps1_writes (r := main_arg0) (by decide)
    _ = B0 m ρ c (Proc.devRef .tc main_arg0) := (B1_arr m ρ c 0).trans (((dat0 (E0 m ρ) c).arrAt_in 0 rfl _).trans (A_eq0 (E0 m ρ) c 0))
    _ = m ((c : Thread nD τ).loc main_arg0) := rfl

/-- And it ends as launched: the second region only reads it. -/
theorem B4_main_arg0 (c : Dev nD) : B4 m ρ c (Proc.devRef .tc main_arg0) = m ((c : Thread nD τ).loc main_arg0) :=
  ((B4_arr m ρ c 0).trans (((dat1 (E1 m ρ) c).arrAt_in 0 rfl _).trans (A_eq1 (E1 m ρ) c 0))).trans (B3_main_arg0 m ρ c)

/-- The table of channel maxima reaches the padding as the first region left it. -/
theorem B2_main_v0 (c : Dev nD) : B2 m ρ c (Proc.devRef .tc main_v0) = (dat0 (E0 m ρ) c).arrAt 1 cfg0.N :=
  (StableHlo.after_of_writes_sub hostOps1 _ hostOps1_writes (r := main_v0) (by decide)).trans (B1_arr m ρ c 1)

/-- The result buffer ends at what the second region's write-backs leave. -/
theorem B4_main_v2 (c : Dev nD) : B4 m ρ c (Proc.devRef .tc main_v2) = (dat1 (E1 m ρ) c).arrAt 2 cfg1.N :=
  B4_arr m ρ c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The first region: entered from every unscoped buffer at `B0`, left at `B1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `B3`, left at `B4` (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (B1 m ρ)),
    .host (hseg hostOps1_1 hostOps1_1_sub hostOps1_1_fresh (B2 m ρ)),
    .region (reg1 m ρ) ]

set_option backward.isDefEq.respectTransparency.types false in
/-- From any memory with zero counters every weakly fair execution of @main terminates, nothing faulting, and every
    final state has the result buffer at the last boundary's contents and the argument as launched. -/
theorem run : θ_run defs (onTc (τ := τ) (main (F := F))) ⟨m, fun _ => 0, ρ⟩ (fun r => ∀ c : Dev nD,
      r.2.mem ((c.tc : Thread nD τ).loc main_v2) = B4 m ρ c (Proc.devRef .tc main_v2)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c =>
      ⟨h c _ (mem_uc main_v2 (by decide)), (h c _ (mem_uc main_arg0 (by decide))).trans (B4_main_arg0 m ρ c)⟩)

end Cert.Kernel.Hand

end
-- ==== Proof.Ideal.MaxBody.lean ====
/-
  The first kernel, one grid point at a time. At point (b, h) it is handed the block of the input holding batch b,
  all 84 channels, rows 64h … 64h+63 and every column, and it stores into its output block (batch b, the same rows) the
  maximum over the first 80 channels, started from minus infinity. What the output's staging buffer holds afterwards
  is therefore one function of the input block; the input's buffer is left as found. This module states that
  function, proves the body computes it, and packages it as the pipeline's per-point data and obligation.
-/
import proofs.«127351_j63196148794003_1_alg».proof.Proof.Gen.KernelIdeal.Launch
import proofs.«127351_j63196148794003_1_alg».proof.Proof.Gen.KernelIdeal.Skeleton
import proofs.«127351_j63196148794003_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the first kernel at grid point `t`, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point: the body never writes it, so what is there is
    what a fetch put there, at this point or at an earlier one with the same block index. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output block, as rectangles at offset zero. -/
abbrev rIn0 : Rect S1x84x64x512 := Rect.unit (s := S1x84x64x512) ![0, 0, 0, 0] S1x84x64x512.size inb_S1x84x64x512_S1x84x64x512_0_0_0_0
abbrev rOut0 : Rect S1x64x512 := Rect.unit (s := S1x64x512) ![0, 0, 0] S1x64x512.size inb_S1x64x512_S1x64x512_0_0_0

/-- What the body leaves in the output's staging buffer: its one store, of the channel maximum of the input block. -/
def out0_1 (x0 : Vec F S1x84x64x512 .f32) : Vec F S1x64x512 .f32 :=
  View.canon [⟨rOut0, k0_pay1 (View.ld x0 rIn0)⟩]

/-- That one store covers the buffer. -/
theorem cover0_1 (p0 : Vec F S1x64x512 .f32) (y : S1x64x512.Idx) :
    ∃ pc ∈ ([⟨rOut0, p0⟩] : List (View.Piece (Elt F) S1x64x512 .f32)), y ∈ pc.1.set :=
  View.cover_of_tiled [⟨rOut0, p0⟩] S1x64x512.size (by rfl) y

set_option maxHeartbeats 1000000 in
/-- The body on whole staging buffers, the input's reading `x0` and the output's anything, runs to its end with the
    input's unchanged and the output's reading `out0_1 x0`. -/
theorem sound_kernel0 (c : Dev nD) (E : Set ℕ) (i : grid0.Coords) (arg2 : Memref sig .tc .vmem S1x84x64x512 .f32) (harg2 : arg2.IsWhole)
    (arg3 : Memref sig .tc .vmem S1x64x512 .f32) (harg3 : arg3.IsWhole)
    (x0 : Vec F S1x84x64x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__probs_kernel i arg2 harg2 arg3 harg3) K := by
  simp only [cc0__probs_kernel_eq_skeleton]; unfold cc0__probs_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The first kernel's per-point data on core `c`: the arrays as the region finds them; after the body at point
    `t` the input's buffer at its block and the output's at `out0_1` of that block; nothing else kept or owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation for the first kernel, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.MaskBody.lean ====
/-
  The second kernel, one grid point at a time. At point (b, h) it is handed the block of the input holding batch b,
  all 84 channels, rows 32h … 32h+31 and every column, and the whole zero-padded 514 × 514 table of channel maxima of
  batch b. From the table it takes the 34 × 514 window of padded rows 32h … 32h+33; the entry of that window at
  (1 + r, 1 + c) is the channel maximum at row 32h + r, column c, and the eight entries around it are its
  neighbours. The body keeps a pixel when its maximum is strictly greater than the four neighbours that come before
  it in row-major order and at least the four that come after, and multiplies every channel of the input block by
  that 0/1 factor. What the output's staging buffer holds afterwards is therefore one function of the two input
  blocks and of h; both inputs' buffers are left as found.
-/
import proofs.«127351_j63196148794003_1_alg».proof.Proof.Gen.KernelIdeal.Launch
import proofs.«127351_j63196148794003_1_alg».proof.Proof.Gen.KernelIdeal.Skeleton
import proofs.«127351_j63196148794003_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the second kernel at grid point `t`, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input block's staging buffer holds the block at every point (it is fetched at every point and never written). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The padded table's staging buffer holds batch b's table at every point: it is fetched when b changes and, the
    body never writing it, still there at the points in between, whose block index is the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole input (and output) block, the whole padded table, and the 34-row window at rows 32h … 32h+33. -/
abbrev rIn1 : Rect S1x84x32x512 := Rect.unit (s := S1x84x32x512) ![0, 0, 0, 0] S1x84x32x512.size inb_S1x84x32x512_S1x84x32x512_0_0_0_0
abbrev rTab1 : Rect S1x514x514 := Rect.unit (s := S1x514x514) ![0, 0, 0] S1x514x514.size inb_S1x514x514_S1x514x514_0_0_0
abbrev rWin1 (i : grid1.Coords) : Rect S514x514 := Rect.unit (s := S514x514) (k1_off1 i) S34x514.size (k1_off1_inb i)

/-- The 34 × 514 window the body loads: the padded table with its unit leading axis dropped, at the window's rows. -/
def window1 (i : grid1.Coords) (x1 : Vec F S1x514x514 .f32) : Vec F S34x514 .f32 :=
  View.ld (shapeCast S514x514 (View.ld x1 rTab1) (by decide)) (rWin1 i)

/-- What the body leaves in the output's staging buffer: its one store, of the input block times the 0/1 factor. -/
def out1_2 (i : grid1.Coords) (x0 : Vec F S1x84x32x512 .f32) (x1 : Vec F S1x514x514 .f32) : Vec F S1x84x32x512 .f32 :=
  View.canon [⟨rIn1, k1_pay1 (window1 i x1) (View.ld x0 rIn1)⟩]

/-- That one store covers the buffer. -/
theorem cover1_2 (p0 : Vec F S1x84x32x512 .f32) (y : S1x84x32x512.Idx) :
    ∃ pc ∈ ([⟨rIn1, p0⟩] : List (View.Piece (Elt F) S1x84x32x512 .f32)), y ∈ pc.1.set :=
  View.cover_of_tiled [⟨rIn1, p0⟩] S1x84x32x512.size (by rfl) y

set_option maxHeartbeats 1000000 in
/-- The body on whole staging buffers, the inputs' reading `x0` and `x1` and the output's anything, runs to its end
    with the inputs' unchanged and the output's reading `out1_2 i x0 x1`. -/
theorem sound_kernel1 (c : Dev nD) (E : Set ℕ) (i : grid1.Coords)
    (arg2 : Memref sig .tc .vmem S1x84x32x512 .f32) (harg2 : arg2.IsWhole)
    (arg3 : Memref sig .tc .vmem S1x514x514 .f32) (harg3 : arg3.IsWhole)
    (arg4 : Memref sig .tc .vmem S1x84x32x512 .f32) (harg4 : arg4.IsWhole)
    (x0 : Vec F S1x84x32x512 .f32) (x1 : Vec F S1x514x514 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 i x0 x1)) -∗ K ⟨⟩))
      ⊢ wp frame (wpE (defs₀ (F := F)) Variants.none c none) E (cc1__mask_mul_kernel i arg2 harg2 arg3 harg3 arg4 harg4) K := by
  simp only [cc1__mask_mul_kernel_eq_skeleton]; unfold cc1__mask_mul_kernel_skel
  unfold owns
  iintro ⟨⟨%f0, %hf0, H0⟩, ⟨%f1, %hf1, H1⟩, ⟨%d2, %f2, -, H2⟩, Hk⟩
  subst hf0
  subst hf1
  sl_exec
  sl_step
  sl_unfold_run_names
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The second kernel's per-point data on core `c`: the arrays as the region finds them; after the body at point
    `t` each input's buffer at its block and the output's at `out1_2` of the two blocks; nothing else kept or owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both inputs' buffers hold their blocks, so `sound_kernel1` applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for the second kernel, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Run.lean ====
/-
  The whole program as four segments in @main's order — the first kernel's region, the constant zero, the padding of
  the table of channel maxima by one zero row and column on every side, the second kernel's region — and what every
  buffer holds at each boundary between them. A region leaves every buffer as it found it except its output array,
  which ends holding what its write-backs leave; a host stretch leaves what its operations compute. Launched from any
  memory with every counter at zero, every weakly fair execution terminates without a fault, the result buffer ends
  at the last boundary's contents and the argument ends as launched.
-/
import proofs.«127351_j63196148794003_1_alg».proof.Proof.Gen.KernelIdeal.Launch
import proofs.«127351_j63196148794003_1_alg».proof.Proof.Gen.KernelIdeal.Skeleton
import proofs.«127351_j63196148794003_1_alg».proof.Proof.Gen.KernelIdeal.Points
import proofs.«127351_j63196148794003_1_alg».proof.Proof.Gen.KernelIdeal.Regions
import proofs.«127351_j63196148794003_1_alg».proof.Proof.Ideal.MaxBody
import proofs.«127351_j63196148794003_1_alg».proof.Proof.Ideal.MaskBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At launch (the first region's entry). -/
abbrev B0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => B0 m ρ c b
/-- At the first region's exit: its arrays at what the pipeline leaves, every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev X1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = X1 m ρ c (Pipeline.arrRef spec0 w) :=
  (B1_arr m ρ c w).symm
theorem hrest0 (c : Dev nD) : ∀ b, b ∉ Finset.univ.image (Pipeline.arrRef spec0) → X1 m ρ c b = E0 m ρ c b :=
  fun b hb => B1_of_ne m ρ c b fun w e => hb (Finset.mem_image.mpr ⟨w, Finset.mem_univ _, e⟩)

/-- After the constant, -/
abbrev B2 : Dev nD → Valuation τ sig (Elt F) := fun c => StableHlo.after hostOps1 (B1 m ρ c)
/-- and after the padding (the second region's entry). -/
abbrev B3 : Dev nD → Valuation τ sig (Elt F) := fun c => StableHlo.after hostOps1_1 (B2 m ρ c)
abbrev E1 : (c : Dev nD) → (b : Ref sig .tc) → Buf (Elt F) ((c : Thread nD τ).loc b) := fun c b => B3 m ρ c b
/-- At the second region's exit. -/
def B4 (c : Dev nD) : Valuation τ sig (Elt F) :=
  Pipeline.withArrays spec1 c (B3 m ρ c) fun w => (dat1 (E1 m ρ) c).arrAt w cfg1.N
theorem B4_arr (c : Dev nD) (w : Fin cfg1.W) :
    B4 m ρ c (Proc.devRef .tc (Pipeline.arrRef spec1 w)) = (dat1 (E1 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem hF1 (c : Dev nD) (w : Fin cfg1.W) : (dat1 (E1 m ρ) c).arrAt w cfg1.N = X4 m ρ c (Pipeline.arrRef spec1 w) :=
  (B4_arr m ρ c w).symm
theorem hrest1 (c : Dev nD) : ∀ b, b ∉ Finset.univ.image (Pipeline.arrRef spec1) → X4 m ρ c b = E1 m ρ c b :=
  fun b hb => B4_of_ne m ρ c b fun w e => hb (Finset.mem_image.mpr ⟨w, Finset.mem_univ _, e⟩)

/-- The argument reaches the second region as launched: the first region only reads it, no host operation writes it. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := StableHlo.after_of_writes_sub hostOps1_1 _ hostOps1_1_writes (r := main_arg0) (by decide)
    _ = B1 m ρ c (Proc.devRef .tc main_arg0) := StableHlo.after_of_writes_sub hostOps1 _ hostOps1_writes (r := main_arg0) (by decide)
    _ = B0 m ρ c (Proc.devRef .tc main_arg0) := (B1_arr m ρ c 0).trans (((dat0 (E0 m ρ) c).arrAt_in 0 rfl _).trans (A_eq0 (E0 m ρ) c 0))
    _ = m ((c : Thread nD τ).loc main_arg0) := rfl

/-- And it ends as launched: the second region only reads it. -/
theorem B4_main_arg0 (c : Dev nD) : B4 m ρ c (Proc.devRef .tc main_arg0) = m ((c : Thread nD τ).loc main_arg0) :=
  ((B4_arr m ρ c 0).trans (((dat1 (E1 m ρ) c).arrAt_in 0 rfl _).trans (A_eq1 (E1 m ρ) c 0))).trans (B3_main_arg0 m ρ c)

/-- The table of channel maxima reaches the padding as the first region left it. -/
theorem B2_main_v0 (c : Dev nD) : B2 m ρ c (Proc.devRef .tc main_v0) = (dat0 (E0 m ρ) c).arrAt 1 cfg0.N :=
  (StableHlo.after_of_writes_sub hostOps1 _ hostOps1_writes (r := main_v0) (by decide)).trans (B1_arr m ρ c 1)

/-- The result buffer ends at what the second region's write-backs leave. -/
theorem B4_main_v2 (c : Dev nD) : B4 m ρ c (Proc.devRef .tc main_v2) = (dat1 (E1 m ρ) c).arrAt 2 cfg1.N :=
  B4_arr m ρ c 2

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The first region: entered from every unscoped buffer at `B0`, left at `B1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `B3`, left at `B4` (what the launch reads at the end). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .region (reg0 m ρ),
    .host (hseg hostOps1 hostOps1_sub hostOps1_fresh (B1 m ρ)),
    .host (hseg hostOps1_1 hostOps1_1_sub hostOps1_1_fresh (B2 m ρ)),
    .region (reg1 m ρ) ]

set_option backward.isDefEq.respectTransparency.types false in
/-- From any memory with zero counters every weakly fair execution of @main terminates, nothing faulting, and every
    final state has the result buffer at the last boundary's contents and the argument as launched. -/
theorem run : θ_run defs (onTc (τ := τ) (main (F := F))) ⟨m, fun _ => 0, ρ⟩ (fun r => ∀ c : Dev nD,
      r.2.mem ((c.tc : Thread nD τ).loc main_v2) = B4 m ρ c (Proc.devRef .tc main_v2)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c =>
      ⟨h c _ (mem_uc main_v2 (by decide)), (h c _ (mem_uc main_arg0 (by decide))).trans (B4_main_arg0 m ρ c)⟩)

end Cert.KernelIdeal.Hand

end
-- ==== Proof.LibReduceBounds.lean ====
/-
  General facts, for any shapes: a minimum- or maximum-reduction over the extended reals, carried by its bounds.

  A `vector.multi_reduction <minimumf>` and the host's `reduce … minimum` at a result index `j` are the fold of `min`
  from the initial value over the source indices that drop to `j`; so an `a` lies below the result exactly when it
  lies below the initial value and below every such source entry.  Dually for `<maximumf>` and what lies above.
  No order of evaluation enters.  Then the index sets by coordinates: along a row or down a column of a rank-2
  array, and every index when the result has a single entry.
-/
import Idealize.ShloMosaic.PureOps.Ideal.Laws
import Idealize.ShloMosaic.Lib.ValueIdx

namespace Cert.Lib.ReduceBounds

open Idealize.ShloMosaic Idealize.ShloMosaic.ValueIdx

variable {s t : Shape} {φ : FTy} {axes : List (Fin s.rank)}

/-! ## Any axes -/

/-- Below a kernel's minimum-reduction: below the initial value and below every entry that reduces to `j`. -/
theorem le_multiReduction_min_iff (src : FVec Ideal s φ) (acc : BitVec φ.bits) (h : s.Reduces axes t)
    (hφ : FKind.Formats φ) (hacc : acc = FKind.minimumf.neutral φ hφ) (j : t.Idx) (a : EReal) :
    a ≤ multiReduction .minimumf axes t src acc h hφ hacc j
      ↔ a ≤ Ideal.ofBits φ acc ∧ ∀ i : s.Idx, h.drop i = j → a ≤ src i := by
  rw [multiReduction_minimumf_eq_fold]
  refine (Finset.le_fold_min (f := src) (b := Ideal.ofBits φ acc) (c := a)
    (s := Finset.univ.filter fun i => h.drop i = j)).trans (and_congr Iff.rfl ?_)
  simp only [Finset.mem_filter, Finset.mem_univ, true_and]

/-- Above a kernel's maximum-reduction: above the initial value and above every entry that reduces to `j`. -/
theorem multiReduction_max_le_iff (src : FVec Ideal s φ) (acc : BitVec φ.bits) (h : s.Reduces axes t)
    (hφ : FKind.Formats φ) (hacc : acc = FKind.maximumf.neutral φ hφ) (j : t.Idx) (b : EReal) :
    multiReduction .maximumf axes t src acc h hφ hacc j ≤ b
      ↔ Ideal.ofBits φ acc ≤ b ∧ ∀ i : s.Idx, h.drop i = j → src i ≤ b := by
  rw [multiReduction_maximumf_eq_fold]
  refine (Finset.fold_max_le (f := src) (b := Ideal.ofBits φ acc) (c := b)
    (s := Finset.univ.filter fun i => h.drop i = j)).trans (and_congr Iff.rfl ?_)
  simp only [Finset.mem_filter, Finset.mem_univ, true_and]

/-- Below the host's minimum-reduction. -/
theorem le_hostReduce_min_iff {u : Shape} (x : s.Idx → Ideal φ) (init : u.Idx → Ideal φ) (h : s.ReducesTo axes t)
    (hu : 0 < u.numel) (j : t.Idx) (a : EReal) :
    a ≤ Host.reduce (FloatOps.minimumf (F := Ideal) (φ := φ)) x init h hu j
      ↔ a ≤ init (Shape.Idx.first hu) ∧ ∀ i : s.Idx, h.drop i = j → a ≤ x i := by
  rw [Host.reduce_eq_fold]
  refine (Finset.le_fold_min (f := x) (b := init (Shape.Idx.first hu)) (c := a)
    (s := Finset.univ.filter fun i => h.drop i = j)).trans (and_congr Iff.rfl ?_)
  simp only [Finset.mem_filter, Finset.mem_univ, true_and]

/-- Above the host's maximum-reduction. -/
theorem hostReduce_max_le_iff {u : Shape} (x : s.Idx → Ideal φ) (init : u.Idx → Ideal φ) (h : s.ReducesTo axes t)
    (hu : 0 < u.numel) (j : t.Idx) (b : EReal) :
    Host.reduce (FloatOps.maximumf (F := Ideal) (φ := φ)) x init h hu j ≤ b
      ↔ init (Shape.Idx.first hu) ≤ b ∧ ∀ i : s.Idx, h.drop i = j → x i ≤ b := by
  rw [Host.reduce_eq_fold]
  refine (Finset.fold_max_le (f := x) (b := init (Shape.Idx.first hu)) (c := b)
    (s := Finset.univ.filter fun i => h.drop i = j)).trans (and_congr Iff.rfl ?_)
  simp only [Finset.mem_filter, Finset.mem_univ, true_and]

/-! ## A result with a single entry: every source index reduces to it -/

theorem drop_eq_of_unit (h : s.Reduces axes t) (ht : ∀ b, t.size b = 1) (i : s.Idx) (j : t.Idx) : h.drop i = j :=
  funext fun b => Fin.ext (by have := (h.drop i b).isLt; have := (j b).isLt; have := ht b; omega)

theorem dropTo_eq_of_unit (h : s.ReducesTo axes t) (ht : ∀ b, t.size b = 1) (i : s.Idx) (j : t.Idx) : h.drop i = j :=
  funext fun b => Fin.ext (by have := (h.drop i b).isLt; have := (j b).isLt; have := ht b; omega)

/-- Above a kernel's maximum over everything: above the initial value and above every entry. -/
theorem multiReduction_max_total_le_iff (src : FVec Ideal s φ) (acc : BitVec φ.bits) (h : s.Reduces axes t)
    (ht : ∀ b, t.size b = 1) (hφ : FKind.Formats φ) (hacc : acc = FKind.maximumf.neutral φ hφ) (j : t.Idx) (b : EReal) :
    multiReduction .maximumf axes t src acc h hφ hacc j ≤ b ↔ Ideal.ofBits φ acc ≤ b ∧ ∀ i : s.Idx, src i ≤ b :=
  (multiReduction_max_le_iff src acc h hφ hacc j b).trans
    (and_congr Iff.rfl ⟨fun H i => H i (drop_eq_of_unit h ht i j), fun H i _ => H i⟩)

/-- Above the host's maximum over everything. -/
theorem hostReduce_max_total_le_iff {u : Shape} (x : s.Idx → Ideal φ) (init : u.Idx → Ideal φ) (h : s.ReducesTo axes t)
    (ht : ∀ b, t.size b = 1) (hu : 0 < u.numel) (j : t.Idx) (b : EReal) :
    Host.reduce (FloatOps.maximumf (F := Ideal) (φ := φ)) x init h hu j ≤ b
      ↔ init (Shape.Idx.first hu) ≤ b ∧ ∀ i : s.Idx, x i ≤ b :=
  (hostReduce_max_le_iff x init h hu j b).trans
    (and_congr Iff.rfl ⟨fun H i => H i (dropTo_eq_of_unit h ht i j), fun H i _ => H i⟩)

/-! ## Through a shape cast -/

/-- A shape cast only re-indexes, one to one and onto: an upper bound of every entry of the cast is an upper bound
    of every entry of the source. -/
theorem forall_shapeCast_le_iff {u : Shape} (x : s.Idx → EReal) (h : s.ShapeCasts u) (b : EReal) :
    (∀ j : u.Idx, shapeCast u x h j ≤ b) ↔ ∀ k : s.Idx, x k ≤ b := by
  unfold shapeCast
  constructor
  · intro H k
    have := H ((Shape.reshapeEquiv h).symm k)
    rwa [Equiv.apply_symm_apply] at this
  · intro H j
    exact H _

/-- The one entry of a maximum over everything, cast to another single-entry shape and taken out at a position:
    it is the maximum's entry, so it has the maximum's bounds. -/
theorem extractAt_shapeCast_max_total_le_iff {u : Shape} (src : FVec Ideal s φ) (acc : BitVec φ.bits) (h : s.Reduces axes t)
    (ht : ∀ b, t.size b = 1) (hφ : FKind.Formats φ) (hacc : acc = FKind.maximumf.neutral φ hφ)
    (hc : t.ShapeCasts u) (pos : Fin u.rank → Nat) (hp : ∀ a, pos a < u.size a) (b : EReal) :
    extractAt pos (shapeCast u (multiReduction .maximumf axes t src acc h hφ hacc) hc) hp ≤ b
      ↔ Ideal.ofBits φ acc ≤ b ∧ ∀ i : s.Idx, src i ≤ b :=
  multiReduction_max_total_le_iff src acc h ht hφ hacc _ b

/-! ## Every index, by coordinates -/

theorem forall_idx1_le_iff {n : ℕ} (x : (⟨1, ![n]⟩ : Shape).Idx → EReal) (b : EReal) :
    (∀ k, x k ≤ b) ↔ ∀ p : Fin n, x (ix1 p) ≤ b :=
  ⟨fun H p => H _, fun H k => by rw [eq_ix1 k]; exact H _⟩

theorem forall_idx2_row_le_iff {n : ℕ} (x : (⟨2, ![1, n]⟩ : Shape).Idx → EReal) (b : EReal) :
    (∀ k, x k ≤ b) ↔ ∀ q : Fin n, x (ix2 (0 : Fin 1) q) ≤ b :=
  ⟨fun H q => H _, fun H k => by rw [eq_ix2 k, Fin.eq_zero (k 0)]; exact H _⟩

/-! ## Rank 2: along a row, down a column -/

variable {n0 n1 : ℕ}

/-- Reducing the columns away, the dropped index keeps the row coordinate. -/
theorem drop_axis1_val (h : (⟨2, ![n0, n1]⟩ : Shape).Reduces [1] ⟨1, ![n0]⟩) (i : (⟨2, ![n0, n1]⟩ : Shape).Idx) (b : Fin 1) :
    (h.drop i b).val = (i 0).val := by
  match b with
  | ⟨0, _⟩ => rfl

/-- Reducing the rows away, the dropped index keeps the column coordinate. -/
theorem drop_axis0_val (h : (⟨2, ![n0, n1]⟩ : Shape).Reduces [0] ⟨1, ![n1]⟩) (i : (⟨2, ![n0, n1]⟩ : Shape).Idx) (b : Fin 1) :
    (h.drop i b).val = (i 1).val := by
  match b with
  | ⟨0, _⟩ => rfl

/-- Reducing the columns away, an index drops to row `r` exactly when it is in row `r`. -/
theorem drop_axis1_iff (h : (⟨2, ![n0, n1]⟩ : Shape).Reduces [1] ⟨1, ![n0]⟩) (i : (⟨2, ![n0, n1]⟩ : Shape).Idx) (r : Fin n0) :
    h.drop i = ix1 r ↔ i 0 = r := by
  constructor
  · intro e
    apply Fin.ext
    have e0 : (h.drop i (0 : Fin 1)).val = r.val := congrArg (fun j : (⟨1, ![n0]⟩ : Shape).Idx => (j 0).val) e
    rw [drop_axis1_val h i 0] at e0
    exact e0
  · intro e
    funext b
    apply Fin.ext
    rw [drop_axis1_val h i b, e]
    match b with
    | ⟨0, _⟩ => rfl

/-- Reducing the rows away, an index drops to column `c` exactly when it is in column `c`. -/
theorem drop_axis0_iff (h : (⟨2, ![n0, n1]⟩ : Shape).Reduces [0] ⟨1, ![n1]⟩) (i : (⟨2, ![n0, n1]⟩ : Shape).Idx) (c : Fin n1) :
    h.drop i = ix1 c ↔ i 1 = c := by
  constructor
  · intro e
    apply Fin.ext
    have e0 : (h.drop i (0 : Fin 1)).val = c.val := congrArg (fun j : (⟨1, ![n1]⟩ : Shape).Idx => (j 0).val) e
    rw [drop_axis0_val h i 0] at e0
    exact e0
  · intro e
    funext b
    apply Fin.ext
    rw [drop_axis0_val h i b, e]
    match b with
    | ⟨0, _⟩ => rfl

/-- Below a kernel's row minimum: below the initial value and below every entry of the row. -/
theorem le_rowMin_iff (src : FVec Ideal ⟨2, ![n0, n1]⟩ φ) (acc : BitVec φ.bits)
    (h : (⟨2, ![n0, n1]⟩ : Shape).Reduces [1] ⟨1, ![n0]⟩) (hφ : FKind.Formats φ) (hacc : acc = FKind.minimumf.neutral φ hφ)
    (r : Fin n0) (a : EReal) :
    a ≤ multiReduction .minimumf [1] ⟨1, ![n0]⟩ src acc h hφ hacc (ix1 r)
      ↔ a ≤ Ideal.ofBits φ acc ∧ ∀ c : Fin n1, a ≤ src (ix2 r c) := by
  refine (le_multiReduction_min_iff src acc h hφ hacc (ix1 r) a).trans (and_congr Iff.rfl ?_)
  constructor
  · intro H c
    exact H (ix2 r c) ((drop_axis1_iff h _ r).2 rfl)
  · intro H i hi
    have e := (drop_axis1_iff h i r).1 hi
    rw [eq_ix2 i, e]
    exact H (i 1)

/-- Below a kernel's column minimum: below the initial value and below every entry of the column. -/
theorem le_colMin_iff (src : FVec Ideal ⟨2, ![n0, n1]⟩ φ) (acc : BitVec φ.bits)
    (h : (⟨2, ![n0, n1]⟩ : Shape).Reduces [0] ⟨1, ![n1]⟩) (hφ : FKind.Formats φ) (hacc : acc = FKind.minimumf.neutral φ hφ)
    (c : Fin n1) (a : EReal) :
    a ≤ multiReduction .minimumf [0] ⟨1, ![n1]⟩ src acc h hφ hacc (ix1 c)
      ↔ a ≤ Ideal.ofBits φ acc ∧ ∀ r : Fin n0, a ≤ src (ix2 r c) := by
  refine (le_multiReduction_min_iff src acc h hφ hacc (ix1 c) a).trans (and_congr Iff.rfl ?_)
  constructor
  · intro H r
    exact H (ix2 r c) ((drop_axis0_iff h _ c).2 rfl)
  · intro H i hi
    have e := (drop_axis0_iff h i c).1 hi
    rw [eq_ix2 i, e]
    exact H (i 0)

/-- Below the host's row minimum. -/
theorem le_hostRowMin_iff {u : Shape} (x : (⟨2, ![n0, n1]⟩ : Shape).Idx → Ideal φ) (init : u.Idx → Ideal φ)
    (h' : (⟨2, ![n0, n1]⟩ : Shape).ReducesTo [1] ⟨1, ![n0]⟩) (h : (⟨2, ![n0, n1]⟩ : Shape).Reduces [1] ⟨1, ![n0]⟩)
    (hu : 0 < u.numel) (r : Fin n0) (a : EReal) :
    a ≤ Host.reduce (FloatOps.minimumf (F := Ideal) (φ := φ)) x init h' hu (ix1 r)
      ↔ a ≤ init (Shape.Idx.first hu) ∧ ∀ c : Fin n1, a ≤ x (ix2 r c) := by
  refine (le_hostReduce_min_iff x init h' hu (ix1 r) a).trans (and_congr Iff.rfl ?_)
  rw [Shape.ReducesTo.drop_eq_drop h' h]
  constructor
  · intro H c
    exact H (ix2 r c) ((drop_axis1_iff h _ r).2 rfl)
  · intro H i hi
    have e := (drop_axis1_iff h i r).1 hi
    rw [eq_ix2 i, e]
    exact H (i 1)

/-- Below the host's column minimum. -/
theorem le_hostColMin_iff {u : Shape} (x : (⟨2, ![n0, n1]⟩ : Shape).Idx → Ideal φ) (init : u.Idx → Ideal φ)
    (h' : (⟨2, ![n0, n1]⟩ : Shape).ReducesTo [0] ⟨1, ![n1]⟩) (h : (⟨2, ![n0, n1]⟩ : Shape).Reduces [0] ⟨1, ![n1]⟩)
    (hu : 0 < u.numel) (c : Fin n1) (a : EReal) :
    a ≤ Host.reduce (FloatOps.minimumf (F := Ideal) (φ := φ)) x init h' hu (ix1 c)
      ↔ a ≤ init (Shape.Idx.first hu) ∧ ∀ r : Fin n0, a ≤ x (ix2 r c) := by
  refine (le_hostReduce_min_iff x init h' hu (ix1 c) a).trans (and_congr Iff.rfl ?_)
  rw [Shape.ReducesTo.drop_eq_drop h' h]
  constructor
  · intro H r
    exact H (ix2 r c) ((drop_axis0_iff h _ c).2 rfl)
  · intro H i hi
    have e := (drop_axis0_iff h i c).1 hi
    rw [eq_ix2 i, e]
    exact H (i 0)

end Cert.Lib.ReduceBounds
-- ==== Proof.RefTable.lean ====
/-
  The reference's table of channel maxima, by its upper bounds. Its entry at (b, y, w) is the maximum, started from
  the initial word, of the argument's entries at (b, ch, y, w) over the first 80 channels ch; so a number lies above it
  exactly when it lies above the initial value and above each of those 80 entries. No order of evaluation enters.
-/
import proofs.«127351_j63196148794003_1_alg».proof.Proof.ReadP
import proofs.«127351_j63196148794003_1_alg».proof.Proof.LibReduceBounds

noncomputable section

namespace Cert.ReferenceIdeal.Hand

open Cert.ReferenceIdeal Cert.ReferenceIdeal.Gen Cert.ReferenceIdeal.ReadP
open Idealize.ShloMosaic Idealize.ShloMosaic.ValueIdx

/-- One of the first 80 channels, as a channel of the 84. -/
abbrev ch84 (ch : Fin 80) : Fin 84 := ⟨ch.val, by have := ch.isLt; omega⟩

/-- Dropping the channel coordinate of (b, ch, y, w) leaves (b, y, w). -/
theorem drop_ix4 (b : Fin 4) (ch : Fin 80) (y w : Fin 512) :
    reducesTo_S4x80x512x512_S4x512x512_d1.drop (ix4 b ch y w) = ix3 b y w := by
  funext a
  match a with
  | ⟨0, _⟩ => rfl
  | ⟨1, _⟩ => rfl
  | ⟨2, _⟩ => rfl

/-- The first 80 channels, cut out of the argument, at (b, ch, y, w): the argument there. -/
theorem slice_ix4 (pts : (⟨S4x84x512x512, .f32⟩ : BufTy).Contents (Elt Ideal)) (b : Fin 4) (ch : Fin 80) (y w : Fin 512) :
    val_main_v0 (F := Ideal) pts (ix4 b ch y w) = pts (ix4 b (ch84 ch) y w) := by
  rw [val_main_v0_apply]
  refine congrArg pts (funext fun a => ?_)
  match a with
  | ⟨0, _⟩ => rfl
  | ⟨1, _⟩ => rfl
  | ⟨2, _⟩ => rfl
  | ⟨3, _⟩ => rfl

/-- Above the table's entry at (b, y, w): above the initial value and above each of the 80 channel entries there. -/
theorem table_le_iff (pts : (⟨S4x84x512x512, .f32⟩ : BufTy).Contents (Elt Ideal)) (b : Fin 4) (y w : Fin 512) (bnd : EReal) :
    val_main_v1 (F := Ideal) pts (ix3 b y w) ≤ bnd
      ↔ Ideal.ofBits .f32 0xFF800000#32 ≤ bnd ∧ ∀ ch : Fin 80, pts (ix4 b (ch84 ch) y w) ≤ bnd := by
  unfold val_main_v1
  refine (Cert.Lib.ReduceBounds.hostReduce_max_le_iff (val_main_v0 (F := Ideal) pts) (val_main_cst (F := Ideal))
    reducesTo_S4x80x512x512_S4x512x512_d1 h_S_ (ix3 b y w) bnd).trans (and_congr Iff.rfl ?_)
  constructor
  · intro H ch
    have h := H (ix4 b ch y w) (drop_ix4 b ch y w)
    rwa [slice_ix4] at h
  · intro H i hi
    have e : i = ix4 b (⟨(i 1).val, (i 1).isLt⟩ : Fin 80) y w := by
      funext a
      match a with
      | ⟨0, _⟩ => exact Fin.ext (congrArg Fin.val (congrFun hi 0))
      | ⟨1, _⟩ => rfl
      | ⟨2, _⟩ => exact Fin.ext (congrArg Fin.val (congrFun hi 1))
      | ⟨3, _⟩ => exact Fin.ext (congrArg Fin.val (congrFun hi 2))
    rw [e, slice_ix4]
    exact H ⟨(i 1).val, (i 1).isLt⟩

end Cert.ReferenceIdeal.Hand

end
-- ==== Proof.Ideal.TableValue.lean ====
/-
  What the first region leaves in its output array: the reference's table of channel maxima of the argument.

  At grid point (b, h) the body writes, at row r and column w of its block, the maximum from minus infinity of the
  input block's entries (0, ch, r, w) over the first 80 channels; the input block's entry (0, ch, r, w) is the
  argument's at (b, ch, 64h + r, w), and the output block's entry (0, r, w) is the array's at (b, 64h + r, w). A
  maximum is determined by what lies above it, and the same numbers lie above the body's maximum and above the
  reference's table entry at (b, 64h + r, w): those above the initial value and above the 80 channel entries. So
  every point writes back its block of the reference's table, and the 32 blocks tile the array.
-/
import proofs.«127351_j63196148794003_1_alg».proof.Proof.Ideal.Run
import proofs.«127351_j63196148794003_1_alg».proof.Proof.RefTable
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.ReferenceIdeal.Hand (ch84 table_le_iff)

/-! ## The body's maximum, by its upper bounds -/

/-- Dropping the channel coordinate of (ch, r, w) leaves (r, w). -/
theorem drop0_ix3 (ch : Fin 80) (r : Fin 64) (w : Fin 512) :
    reduces_S80x64x512_S64x512.drop (ix3 ch r w) = ix2 r w := by
  funext a
  match a with
  | ⟨0, _⟩ => rfl
  | ⟨1, _⟩ => rfl

/-- The first 80 channels of the block, its unit batch axis dropped, at (ch, r, w): the block at (0, ch, r, w). -/
theorem chans_ix3 (x0 : Vec Ideal S1x84x64x512 .f32) (ch : Fin 80) (r : Fin 64) (w : Fin 512) :
    shapeCast S80x64x512 (extractStridedSlice S1x80x64x512 ![0, 0, 0, 0] x0 slices_S1x84x64x512_o0_0_0_0_S1x80x64x512)
        shapeCasts_S1x80x64x512_S80x64x512 (ix3 ch r w)
      = x0 (ix4 (0 : Fin 1) (ch84 ch) r w) := by
  rw [shapeCast_1abc_abc_apply]
  exact extractStridedSlice_apply _ x0 _ _ _ (fun a => match a with
    | ⟨0, _⟩ => rfl
    | ⟨1, _⟩ => by show ch.val = 0 + ch.val; omega
    | ⟨2, _⟩ => by show r.val = 0 + r.val; omega
    | ⟨3, _⟩ => by show w.val = 0 + w.val; omega)

/-- Above the body's result at (u, r, w): above the initial value and above each of the 80 channel entries there. -/
theorem block_max_le_iff (x0 : Vec Ideal S1x84x64x512 .f32) (u : Fin 1) (r : Fin 64) (w : Fin 512) (bnd : EReal) :
    k0_pay1 (F := Ideal) x0 (ix3 u r w) ≤ bnd
      ↔ Ideal.ofBits .f32 0xFF800000#32 ≤ bnd ∧ ∀ ch : Fin 80, x0 (ix4 (0 : Fin 1) (ch84 ch) r w) ≤ bnd := by
  unfold k0_pay1
  dsimp only
  rw [shapeCast_ab_1ab_apply]
  refine (Cert.Lib.ReduceBounds.multiReduction_max_le_iff _ _ reduces_S80x64x512_S64x512 _ _ (ix2 r w) bnd).trans
    (and_congr Iff.rfl ?_)
  constructor
  · intro H ch
    have h := H (ix3 ch r w) (drop0_ix3 ch r w)
    rwa [chans_ix3] at h
  · intro H i hi
    have e : i = ix3 (⟨(i 0).val, (i 0).isLt⟩ : Fin 80) r w := by
      funext a
      match a with
      | ⟨0, _⟩ => rfl
      | ⟨1, _⟩ => exact Fin.ext (congrArg Fin.val (congrFun hi 0))
      | ⟨2, _⟩ => exact Fin.ext (congrArg Fin.val (congrFun hi 1))
    rw [e, chans_ix3]
    exact H ⟨(i 0).val, (i 0).isLt⟩

/-! ## From blocks to the array -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The two index maps over the grid: the input block sits at the output block's batch and row band, at channel block
    and column block zero; the output's batch index is below 4 and its row-band index below 8. -/
theorem table_idx_facts : ∀ t : Fin cfg0.N, win0_0.index t (0 : Fin 4) = win0_1.index t (0 : Fin 3)
    ∧ win0_0.index t (1 : Fin 4) = 0
    ∧ win0_0.index t (2 : Fin 4) = win0_1.index t (1 : Fin 3)
    ∧ win0_0.index t (3 : Fin 4) = 0
    ∧ win0_1.index t (2 : Fin 3) = 0
    ∧ win0_1.index t (0 : Fin 3) < 4 ∧ win0_1.index t (1 : Fin 3) < 8 :=
  (by decide +kernel : ∀ t : Fin grid0.N, _)

/-- Every (batch, row band) is some point's. -/
theorem table_idx_onto : ∀ (q0 : Fin 4) (q1 : Fin 8), ∃ t : Fin cfg0.N, win0_1.index t = ![q0.val, q1.val, 0] :=
  (by decide +kernel : ∀ (q0 : Fin 4) (q1 : Fin 8), ∃ t : Fin grid0.N, win0_1.index t = ![q0.val, q1.val, 0])

set_option maxHeartbeats 400000 in
/-- What point `t` writes back is block `t` of the reference's table of the argument. -/
theorem table_flushed (c : Dev nD) (t : Fin cfg0.N) :
    (dat0 (E0 m ρ) c).flushed 1 t = ((cfg0.win 1).blk t).view.read (Elt Ideal)
      (Cert.ReferenceIdeal.ReadP.val_main_v1 (F := Ideal) (m ((c : Thread nD τ).loc main_arg0))) := by
  show (cfg0.win 1).cut (grid0.coords t) ((dat0 (E0 m ρ) c).after 1 t) = _
  rw [after0_1]
  unfold out0_1
  rw [View.canon_unit_zero hz3]
  simp only [View.ld_unit_zero (S := S1x84x64x512) hz4]
  obtain ⟨e0, e1, e2, e3, e4, e5, e6⟩ := table_idx_facts t
  obtain ⟨pts, hpts⟩ : ∃ pts : (⟨Cert.ReferenceIdeal.S4x84x512x512, .f32⟩ : BufTy).Contents (Elt Ideal),
      pts = m ((c : Thread nD τ).loc main_arg0) := ⟨_, rfl⟩
  rw [← hpts]
  generalize hG : Cert.ReferenceIdeal.ReadP.val_main_v1 (F := Ideal) pts = G
  generalize hP : k0_pay1 (F := Ideal) (iblk0 (E0 m ρ) c 0 t) = Pf
  funext y
  obtain ⟨u, r, w, rfl⟩ : ∃ (u : Fin 1) (r : Fin 64) (w : Fin 512), y = ix3 u r w := ⟨y 0, y 1, y 2, eq_ix3 y⟩
  have hr : r.val < 64 := r.isLt
  have hy : (((cfg0.win 1).blk t).view.emb (ix3 u r w) : S4x512x512.Idx) = ix3 (⟨win0_1.index t (0 : Fin 3), e5⟩ : Fin 4) (⟨win0_1.index t (1 : Fin 3) * 64 + r.val, by omega⟩ : Fin 512) w := by
    funext a; apply Fin.ext
    match a with
    | ⟨0, _⟩ => show win0_1.index t (0 : Fin 3) * 1 + 1 * u.val = win0_1.index t (0 : Fin 3); have := u.isLt; omega
    | ⟨1, _⟩ => show win0_1.index t (1 : Fin 3) * 64 + 1 * r.val = win0_1.index t (1 : Fin 3) * 64 + r.val; omega
    | ⟨2, _⟩ => show win0_1.index t (2 : Fin 3) * 512 + 1 * w.val = w.val; omega
  have hemb : ∀ ch : Fin 80, (((cfg0.win 0).blk t).view.emb (ix4 (0 : Fin 1) (ch84 ch) r w) : S4x84x512x512.Idx)
      = ix4 (⟨win0_1.index t (0 : Fin 3), e5⟩ : Fin 4) (ch84 ch) (⟨win0_1.index t (1 : Fin 3) * 64 + r.val, by omega⟩ : Fin 512) w := by
    intro ch
    funext a; apply Fin.ext
    match a with
    | ⟨0, _⟩ => show win0_0.index t (0 : Fin 4) * 1 + 1 * 0 = win0_1.index t (0 : Fin 3); omega
    | ⟨1, _⟩ => show win0_0.index t (1 : Fin 4) * 84 + 1 * ch.val = ch.val; omega
    | ⟨2, _⟩ => show win0_0.index t (2 : Fin 4) * 64 + 1 * r.val = win0_1.index t (1 : Fin 3) * 64 + r.val; omega
    | ⟨3, _⟩ => show win0_0.index t (3 : Fin 4) * 512 + 1 * w.val = w.val; omega
  have hx : ∀ ch : Fin 80, iblk0 (E0 m ρ) c 0 t (ix4 (0 : Fin 1) (ch84 ch) r w) = pts (ix4 (⟨win0_1.index t (0 : Fin 3), e5⟩ : Fin 4) (ch84 ch) (⟨win0_1.index t (1 : Fin 3) * 64 + r.val, by omega⟩ : Fin 512) w) := by
    intro ch
    show m ((c : Thread nD τ).loc main_arg0) (((cfg0.win 0).blk t).view.emb (ix4 (0 : Fin 1) (ch84 ch) r w)) = _
    rw [hemb ch, hpts]
  rw [View.read_apply, cast_eq]
  show Pf (ix3 u r w) = G (((cfg0.win 1).blk t).view.emb (ix3 u r w))
  rw [hy]
  have hK : ∀ bnd : EReal, Pf (ix3 u r w) ≤ bnd
      ↔ Ideal.ofBits .f32 0xFF800000#32 ≤ bnd ∧ ∀ ch : Fin 80, pts (ix4 (⟨win0_1.index t (0 : Fin 3), e5⟩ : Fin 4) (ch84 ch) (⟨win0_1.index t (1 : Fin 3) * 64 + r.val, by omega⟩ : Fin 512) w) ≤ bnd := by
    intro bnd
    rw [← hP]
    exact (block_max_le_iff (iblk0 (E0 m ρ) c 0 t) u r w bnd).trans
      (and_congr Iff.rfl (forall_congr' fun ch => by rw [hx ch]))
  have hR : ∀ bnd : EReal, G (ix3 (⟨win0_1.index t (0 : Fin 3), e5⟩ : Fin 4) (⟨win0_1.index t (1 : Fin 3) * 64 + r.val, by omega⟩ : Fin 512) w) ≤ bnd
      ↔ Ideal.ofBits .f32 0xFF800000#32 ≤ bnd ∧ ∀ ch : Fin 80, pts (ix4 (⟨win0_1.index t (0 : Fin 3), e5⟩ : Fin 4) (ch84 ch) (⟨win0_1.index t (1 : Fin 3) * 64 + r.val, by omega⟩ : Fin 512) w) ≤ bnd := by
    intro bnd
    rw [← hG]
    exact table_le_iff pts _ _ w bnd
  generalize Pf (ix3 u r w) = a at hK ⊢
  generalize G (ix3 (⟨win0_1.index t (0 : Fin 3), e5⟩ : Fin 4) (⟨win0_1.index t (1 : Fin 3) * 64 + r.val, by omega⟩ : Fin 512) w) = b at hR ⊢
  exact le_antisymm ((hK b).2 ((hR b).1 le_rfl)) ((hR a).2 ((hK a).1 le_rfl))

/-- An index of the table is in point `t`'s block iff each coordinate is in the block's range on its axis. -/
theorem table_mem_blk (t : Fin cfg0.N) (i : S4x512x512.Idx) :
    i ∈ ((cfg0.win 1).blk t).view.set ↔ ∀ a : Fin 3, win0_1.index t a * S1x64x512.size a ≤ (i a).val
      ∧ (i a).val < win0_1.index t a * S1x64x512.size a + S1x64x512.size a := by
  show i ∈ ((View.whole main_v0).slice (win0_1.rect t)).set ↔ _
  rw [View.set_slice_whole, Rect.mem_set_unit]
  exact Iff.rfl

/-- Every index of the table is in the block of the point at its batch and row band. -/
theorem table_cover (i : S4x512x512.Idx) :
    ∃ t : Fin cfg0.N, (cfg0.win 1).flush t = true ∧ i ∈ ((cfg0.win 1).blk t).view.set := by
  have hi0 : (i 0).val < 4 := (i 0).isLt
  have hi1 : (i 1).val < 512 := (i 1).isLt
  have hi2 : (i 2).val < 512 := (i 2).isLt
  obtain ⟨t, ht⟩ := table_idx_onto ⟨(i 0).val, hi0⟩ ⟨(i 1).val / 64, by omega⟩
  have q0 : win0_1.index t (0 : Fin 3) = (i 0).val := congrFun ht 0
  have q1 : win0_1.index t (1 : Fin 3) = (i 1).val / 64 := congrFun ht 1
  have q2 : win0_1.index t (2 : Fin 3) = 0 := congrFun ht 2
  refine ⟨t, flush0_1 t, ?_⟩
  rw [table_mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 512 ≤ (i 2).val ∧ (i 2).val < win0_1.index t (2 : Fin 3) * 512 + 512; omega

/-- After the first region its output array is the reference's table of the argument. -/
theorem table_final (c : Dev nD) :
    (dat0 (E0 m ρ) c).arrAt 1 cfg0.N
      = Cert.ReferenceIdeal.ReadP.val_main_v1 (F := Ideal) (m ((c : Thread nD τ).loc main_arg0)) :=
  (dat0 (E0 m ρ) c).arrAt_eq_of_cover 1 _ (fun t _ => table_flushed m ρ c t) table_cover

end Cert.KernelIdeal.Hand

end
-- ==== Proof.LibTransport.lean ====
/-
  Contents carried to a buffer's own type and back.

  A typed reference to a buffer holds the equation between the buffer's type and the type of the value kept in it, and
  contents move along that equation in both directions: `toBuf` from the value's type to the buffer's, `ofBuf` back.
  There and back is the identity, in either order — for any reference table, any value family and any buffer type. A host
  function written over typed references leaves one such pair around every intermediate value; these two facts remove them.
-/
import Idealize.ShloMosaic.Lib.StableHlo

namespace Cert.Lib.Transport

open Idealize.ShloMosaic Idealize.ShloMosaic.StableHlo

/-- Contents carried to the buffer's own type and back are unchanged. -/
theorem ofBuf_toBuf {sig : RefSig} {Val : EltTy → Type} {T : BufTy} (x : TRef sig T) (v : T.Contents Val) :
    x.ofBuf (x.toBuf v) = v := by
  obtain ⟨r, h, h2, h3⟩ := x; subst h; rfl

/-- Buffer contents carried to the value's type and back are unchanged. -/
theorem toBuf_ofBuf {sig : RefSig} {Val : EltTy → Type} {T : BufTy} (x : TRef sig T) (v : x.ref.ty.Contents Val) :
    x.toBuf (x.ofBuf v) = v := by
  obtain ⟨r, h, h2, h3⟩ := x; subst h; rfl

end Cert.Lib.Transport
-- ==== Proof.LibCarried.lean ====
/-
  Contents carried along a typed reference's type equation, when both sides are the same contents.

  A typed reference to a buffer holds an equation between the buffer's type and the type of the value kept in it, and
  `ofBuf` / `toBuf` carry contents along it. When the buffer's contents and the value are heterogeneously equal — in
  particular when the two types are equal by computation and the two terms are the same — carrying changes nothing:
  * `ofBuf_eq_of_heq`: buffer contents carried to the value's type equal the value;
  * `toBuf_eq_of_heq`: a value carried to the buffer's type equals the buffer contents.
  For any reference table, any value family and any buffer type. These remove the wrappers an outlined host function
  (written over typed references) leaves at the buffers it reads from and writes to its caller; the wrappers around its
  own intermediate values are pairs that cancel. It imports only the Idealize library.
-/
import Idealize.ShloMosaic.Lib.StableHlo

namespace Cert.Lib.Carried

open Idealize.ShloMosaic Idealize.ShloMosaic.StableHlo

/-- Buffer contents carried to the value's type are the value they are heterogeneously equal to. -/
theorem ofBuf_eq_of_heq {sig : RefSig} {Val : EltTy → Type} {T : BufTy} (x : TRef sig T)
    (v : x.ref.ty.Contents Val) (v' : T.Contents Val) (hv : HEq v v') : x.ofBuf v = v' := by
  obtain ⟨r, h, h2, h3⟩ := x; subst h; exact eq_of_heq hv

/-- A value carried to its buffer's type is the buffer contents it is heterogeneously equal to. -/
theorem toBuf_eq_of_heq {sig : RefSig} {Val : EltTy → Type} {T : BufTy} (x : TRef sig T)
    (v : T.Contents Val) (v' : x.ref.ty.Contents Val) (hv : HEq v v') : x.toBuf v = v' := by
  obtain ⟨r, h, h2, h3⟩ := x; subst h; exact eq_of_heq hv

end Cert.Lib.Carried
-- ==== Proof.RefRun.lean ====
/-
  The reference, run. Its @main is thirty-six host operations in a line: the first six compute the table of channel
  maxima (the maximum over the first 80 channels, from minus infinity) and pad it by one zero row and column on every
  side; the other thirty read only the argument, the table and the padded table — eight shifted views of the padded
  table compared with the table, the comparisons conjoined, the 0/1 result spread over the channels and multiplied
  into the argument. So the result is the last stage's function of the argument, read with the table and the padded
  table as two named intermediate values rather than re-spelt at each of their seventeen uses.
-/
import proofs.«127351_j63196148794003_1_alg».proof.Proof.ReadP
import proofs.«127351_j63196148794003_1_alg».proof.Proof.LibTransport
import proofs.«127351_j63196148794003_1_alg».proof.Proof.LibCarried

noncomputable section

namespace Cert.ReferenceIdeal.Hand

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The six operations that make the table and the padded table, -/
abbrev opsA : List (HloOp τ sig (Elt F)) :=
  [ unary main_arg0 main_v0 ((extractStridedSlice S4x80x512x512 ![0, 0, 0, 0] · slices_S4x84x512x512_S4x80x512x512_0_0_0_0) : (⟨S4x84x512x512, .f32⟩ : BufTy).Contents (Elt F) → (⟨S4x80x512x512, .f32⟩ : BufTy).Contents (Elt F)),
    nullary main_cst (constant S_ .f32 0xFF800000#32),
    binary main_v0 main_cst main_v1 ((fun x v => Host.reduce FloatOps.maximumf x v reducesTo_S4x80x512x512_S4x512x512_d1 h_S_) : (⟨S4x80x512x512, .f32⟩ : BufTy).Contents (Elt F) → (⟨S_, .f32⟩ : BufTy).Contents (Elt F) → (⟨S4x512x512, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S4x512x512, .f32⟩) main_v1) (TRef.of (T := ⟨S_, .f32⟩) main_call0_v0) (TRef.of (T := ⟨S4x514x514, .f32⟩) main_v2) (fun x v => pad S4x514x514 ![0, 1, 1] ![0, 1, 1] ![0, 0, 0] x v pads_S4x512x512_S4x514x514_000_110_110 h_S_) ]

/-- and the thirty that read them. -/
abbrev opsB : List (HloOp τ sig (Elt F)) :=
  [ nullary main_c_0 (constantI S_ 1 1#1),
    unary main_c_0 main_v3 (broadcastInDim S4x512x512 ![] bcast_S_S4x512x512 : (⟨S_, .i1⟩ : BufTy).Contents (Elt F) → (⟨S4x512x512, .i1⟩ : BufTy).Contents (Elt F)),
    unary main_v2 main_v4 ((extractStridedSlice S4x512x512 ![0, 0, 0] · slices_S4x514x514_S4x512x512_0_0_0) : (⟨S4x514x514, .f32⟩ : BufTy).Contents (Elt F) → (⟨S4x512x512, .f32⟩ : BufTy).Contents (Elt F)),
    binary main_v1 main_v4 main_v5 (cmpf .ogt : (⟨S4x512x512, .f32⟩ : BufTy).Contents (Elt F) → (⟨S4x512x512, .f32⟩ : BufTy).Contents (Elt F) → (⟨S4x512x512, .i1⟩ : BufTy).Contents (Elt F)),
    binary main_v3 main_v5 main_v6 (andi : (⟨S4x512x512, .i1⟩ : BufTy).Contents (Elt F) → (⟨S4x512x512, .i1⟩ : BufTy).Contents (Elt F) → (⟨S4x512x512, .i1⟩ : BufTy).Contents (Elt F)),
    unary main_v2 main_v7 ((extractStridedSlice S4x512x512 ![0, 0, 1] · slices_S4x514x514_S4x512x512_0_0_1) : (⟨S4x514x514, .f32⟩ : BufTy).Contents (Elt F) → (⟨S4x512x512, .f32⟩ : BufTy).Contents (Elt F)),
    binary main_v1 main_v7 main_v8 (cmpf .ogt : (⟨S4x512x512, .f32⟩ : BufTy).Contents (Elt F) → (⟨S4x512x512, .f32⟩ : BufTy).Contents (Elt F) → (⟨S4x512x512, .i1⟩ : BufTy).Contents (Elt F)),
    binary main_v6 main_v8 main_v9 (andi : (⟨S4x512x512, .i1⟩ : BufTy).Contents (Elt F) → (⟨S4x512x512, .i1⟩ : BufTy).Contents (Elt F) → (⟨S4x512x512, .i1⟩ : BufTy).Contents (Elt F)),
    unary main_v2 main_v10 ((extractStridedSlice S4x512x512 ![0, 0, 2] · slices_S4x514x514_S4x512x512_0_0_2) : (⟨S4x514x514, .f32⟩ : BufTy).Contents (Elt F) → (⟨S4x512x512, .f32⟩ : BufTy).Contents (Elt F)),
    binary main_v1 main_v10 main_v11 (cmpf .ogt : (⟨S4x512x512, .f32⟩ : BufTy).Contents (Elt F) → (⟨S4x512x512, .f32⟩ : BufTy).Contents (Elt F) → (⟨S4x512x512, .i1⟩ : BufTy).Contents (Elt F)),
    binary main_v9 main_v11 main_v12 (andi : (⟨S4x512x512, .i1⟩ : BufTy).Contents (Elt F) → (⟨S4x512x512, .i1⟩ : BufTy).Contents (Elt F) → (⟨S4x512x512, .i1⟩ : BufTy).Contents (Elt F)),
    unary main_v2 main_v13 ((extractStridedSlice S4x512x512 ![0, 1, 0] · slices_S4x514x514_S4x512x512_0_1_0) : (⟨S4x514x514, .f32⟩ : BufTy).Contents (Elt F) → (⟨S4x512x512, .f32⟩ : BufTy).Contents (Elt F)),
    binary main_v1 main_v13 main_v14 (cmpf .ogt : (⟨S4x512x512, .f32⟩ : BufTy).Contents (Elt F) → (⟨S4x512x512, .f32⟩ : BufTy).Contents (Elt F) → (⟨S4x512x512, .i1⟩ : BufTy).Contents (Elt F)),
    binary main_v12 main_v14 main_v15 (andi : (⟨S4x512x512, .i1⟩ : BufTy).Contents (Elt F) → (⟨S4x512x512, .i1⟩ : BufTy).Contents (Elt F) → (⟨S4x512x512, .i1⟩ : BufTy).Contents (Elt F)),
    unary main_v2 main_v16 ((extractStridedSlice S4x512x512 ![0, 1, 2] · slices_S4x514x514_S4x512x512_0_1_2) : (⟨S4x514x514, .f32⟩ : BufTy).Contents (Elt F) → (⟨S4x512x512, .f32⟩ : BufTy).Contents (Elt F)),
    binary main_v1 main_v16 main_v17 (cmpf .oge : (⟨S4x512x512, .f32⟩ : BufTy).Contents (Elt F) → (⟨S4x512x512, .f32⟩ : BufTy).Contents (Elt F) → (⟨S4x512x512, .i1⟩ : BufTy).Contents (Elt F)),
    binary main_v15 main_v17 main_v18 (andi : (⟨S4x512x512, .i1⟩ : BufTy).Contents (Elt F) → (⟨S4x512x512, .i1⟩ : BufTy).Contents (Elt F) → (⟨S4x512x512, .i1⟩ : BufTy).Contents (Elt F)),
    unary main_v2 main_v19 ((extractStridedSlice S4x512x512 ![0, 2, 0] · slices_S4x514x514_S4x512x512_0_2_0) : (⟨S4x514x514, .f32⟩ : BufTy).Contents (Elt F) → (⟨S4x512x512, .f32⟩ : BufTy).Contents (Elt F)),
    binary main_v1 main_v19 main_v20 (cmpf .oge : (⟨S4x512x512, .f32⟩ : BufTy).Contents (Elt F) → (⟨S4x512x512, .f32⟩ : BufTy).Contents (Elt F) → (⟨S4x512x512, .i1⟩ : BufTy).Contents (Elt F)),
    binary main_v18 main_v20 main_v21 (andi : (⟨S4x512x512, .i1⟩ : BufTy).Contents (Elt F) → (⟨S4x512x512, .i1⟩ : BufTy).Contents (Elt F) → (⟨S4x512x512, .i1⟩ : BufTy).Contents (Elt F)),
    unary main_v2 main_v22 ((extractStridedSlice S4x512x512 ![0, 2, 1] · slices_S4x514x514_S4x512x512_0_2_1) : (⟨S4x514x514, .f32⟩ : BufTy).Contents (Elt F) → (⟨S4x512x512, .f32⟩ : BufTy).Contents (Elt F)),
    binary main_v1 main_v22 main_v23 (cmpf .oge : (⟨S4x512x512, .f32⟩ : BufTy).Contents (Elt F) → (⟨S4x512x512, .f32⟩ : BufTy).Contents (Elt F) → (⟨S4x512x512, .i1⟩ : BufTy).Contents (Elt F)),
    binary main_v21 main_v23 main_v24 (andi : (⟨S4x512x512, .i1⟩ : BufTy).Contents (Elt F) → (⟨S4x512x512, .i1⟩ : BufTy).Contents (Elt F) → (⟨S4x512x512, .i1⟩ : BufTy).Contents (Elt F)),
    unary main_v2 main_v25 ((extractStridedSlice S4x512x512 ![0, 2, 2] · slices_S4x514x514_S4x512x512_0_2_2) : (⟨S4x514x514, .f32⟩ : BufTy).Contents (Elt F) → (⟨S4x512x512, .f32⟩ : BufTy).Contents (Elt F)),
    binary main_v1 main_v25 main_v26 (cmpf .oge : (⟨S4x512x512, .f32⟩ : BufTy).Contents (Elt F) → (⟨S4x512x512, .f32⟩ : BufTy).Contents (Elt F) → (⟨S4x512x512, .i1⟩ : BufTy).Contents (Elt F)),
    binary main_v24 main_v26 main_v27 (andi : (⟨S4x512x512, .i1⟩ : BufTy).Contents (Elt F) → (⟨S4x512x512, .i1⟩ : BufTy).Contents (Elt F) → (⟨S4x512x512, .i1⟩ : BufTy).Contents (Elt F)),
    unary main_v27 main_v28 (broadcastInDim S4x1x512x512 ![0, 2, 3] bcast_S4x512x512_S4x1x512x512_0_2_3 : (⟨S4x512x512, .i1⟩ : BufTy).Contents (Elt F) → (⟨S4x1x512x512, .i1⟩ : BufTy).Contents (Elt F)),
    unary main_v28 main_v29 (uitofp .f32 : (⟨S4x1x512x512, .i1⟩ : BufTy).Contents (Elt F) → (⟨S4x1x512x512, .f32⟩ : BufTy).Contents (Elt F)),
    unary main_v29 main_v30 (broadcastInDim S4x84x512x512 ![0, 1, 2, 3] bcast_S4x1x512x512_S4x84x512x512_0_1_2_3 : (⟨S4x1x512x512, .f32⟩ : BufTy).Contents (Elt F) → (⟨S4x84x512x512, .f32⟩ : BufTy).Contents (Elt F)),
    binary main_arg0 main_v30 main_v31 (mulf : (⟨S4x84x512x512, .f32⟩ : BufTy).Contents (Elt F) → (⟨S4x84x512x512, .f32⟩ : BufTy).Contents (Elt F) → (⟨S4x84x512x512, .f32⟩ : BufTy).Contents (Elt F)) ]

theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
theorem ops_sub : ((opsA ++ opsB : List (HloOp τ sig (Elt F)))).Forall fun op => op.bufs ⊆ tcRefs τ sig :=
  ⟨unary_bufs_sub .., nullary_bufs_sub .., binary_bufs_sub .., nullary_bufs_sub .., unary_bufs_sub .., binary_bufs_sub .., nullary_bufs_sub .., unary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., unary_bufs_sub .., unary_bufs_sub .., binary_bufs_sub ..⟩

/-- Two lines of operations one after the other fold as the second over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## After the first six: the argument as launched, the table, the padded table -/

theorem stageA_arg (V : Valuation τ sig (Elt F)) :
    after opsA V (Proc.devRef .tc main_arg0) = V (Proc.devRef .tc main_arg0) := by
  after_results

theorem stageA_table (V : Valuation τ sig (Elt F)) :
    after opsA V (Proc.devRef .tc main_v1) = val_main_v1 (F := F) (V (Proc.devRef .tc main_arg0)) := by
  after_results; rfl

/-- The padding goes through the outlined function's typed references, which carry contents to the buffers' own types
    and back; carried along an equation that holds by computation, contents are unchanged. -/
theorem stageA_padded (V : Valuation τ sig (Elt F)) :
    after opsA V (Proc.devRef .tc main_v2) = val_main_v2 (F := F) (V (Proc.devRef .tc main_arg0)) := by
  after_results
  simp only [Cert.Lib.Transport.ofBuf_toBuf]
  unfold val_main_v2 val_main_v1 val_main_v0 val_main_cst val_main_call0_v0 val_main_c
  refine Cert.Lib.Carried.toBuf_eq_of_heq _ _ _ (heq_of_eq ?_)
  refine congrArg₂ (fun (a : (⟨S4x512x512, .f32⟩ : BufTy).Contents (Elt F)) (b : (⟨S_, .f32⟩ : BufTy).Contents (Elt F)) =>
    pad S4x514x514 ![0, 1, 1] ![0, 1, 1] ![0, 0, 0] a b pads_S4x512x512_S4x514x514_000_110_110 h_S_) ?_ ?_
  · exact Cert.Lib.Carried.ofBuf_eq_of_heq _ _ _ HEq.rfl
  · exact congrArg (sitofp .f32) (Cert.Lib.Carried.ofBuf_eq_of_heq _ _ _ HEq.rfl)

/-! ## The last thirty, over any contents: the result from the argument, the table and the padded table -/

/-- The mask-and-multiply stages as one function of the three values they read. -/
def tail (x0 : (⟨S4x84x512x512, .f32⟩ : BufTy).Contents (Elt F)) (p : (⟨S4x512x512, .f32⟩ : BufTy).Contents (Elt F))
    (t : (⟨S4x514x514, .f32⟩ : BufTy).Contents (Elt F)) : (⟨S4x84x512x512, .f32⟩ : BufTy).Contents (Elt F) :=
  let sl (o : Fin 3 → Nat) (h : S4x514x514.Slices o S4x512x512) := extractStridedSlice S4x512x512 o t h
  mulf x0 (broadcastInDim S4x84x512x512 ![0, 1, 2, 3] bcast_S4x1x512x512_S4x84x512x512_0_1_2_3 (uitofp .f32
    (broadcastInDim S4x1x512x512 ![0, 2, 3] bcast_S4x512x512_S4x1x512x512_0_2_3
      (andi (andi (andi (andi (andi (andi (andi (andi
        (broadcastInDim S4x512x512 ![] bcast_S_S4x512x512 (constantI S_ 1 1#1))
        (cmpf .ogt p (sl ![0, 0, 0] slices_S4x514x514_S4x512x512_0_0_0)))
        (cmpf .ogt p (sl ![0, 0, 1] slices_S4x514x514_S4x512x512_0_0_1)))
        (cmpf .ogt p (sl ![0, 0, 2] slices_S4x514x514_S4x512x512_0_0_2)))
        (cmpf .ogt p (sl ![0, 1, 0] slices_S4x514x514_S4x512x512_0_1_0)))
        (cmpf .oge p (sl ![0, 1, 2] slices_S4x514x514_S4x512x512_0_1_2)))
        (cmpf .oge p (sl ![0, 2, 0] slices_S4x514x514_S4x512x512_0_2_0)))
        (cmpf .oge p (sl ![0, 2, 1] slices_S4x514x514_S4x512x512_0_2_1)))
        (cmpf .oge p (sl ![0, 2, 2] slices_S4x514x514_S4x512x512_0_2_2))))))

theorem stageB (W : Valuation τ sig (Elt F)) :
    after opsB W (Proc.devRef .tc main_v31)
      = tail (F := F) (W (Proc.devRef .tc main_arg0)) (W (Proc.devRef .tc main_v1)) (W (Proc.devRef .tc main_v2)) := by
  after_results_simp <;> rfl

/-- The reference's last stage is that function of the argument, its table and its padded table. -/
theorem val_eq_tail (x0 : (⟨S4x84x512x512, .f32⟩ : BufTy).Contents (Elt F)) :
    val_main_v31 (F := F) x0 = tail (F := F) x0 (val_main_v1 (F := F) x0) (val_main_v2 (F := F) x0) := rfl

/-- From any memory with zero counters every weakly fair execution of the reference terminates, the result buffer at
    the last stage's function of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = val_main_v31 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v31).trans (by
        rw [after_append, stageB, stageA_arg, stageA_table, stageA_padded, val_eq_tail]),
      (h c main_arg0).trans (by
        rw [after_append]
        refine (after_of_forall_not_mem (b := Proc.devRef .tc main_arg0) opsB _ ?_).trans ((stageA_arg _).trans rfl)
        intro op hop
        simp only [opsB, List.mem_cons, List.not_mem_nil, or_false] at hop
        rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl <;>
          simp only [nullary_writes, unary_writes, binary_writes, Finset.mem_singleton] <;> exact devRef_ne_of_ne (by decide))⟩)
    (run_seq scopedRefs_eq scopedSems_eq defs main (fun _ => opsA ++ opsB) main_eq (fun _ => ops_sub) m ρ)

end Cert.ReferenceIdeal.Hand

end
-- ==== Proof.RefMask.lean ====
/-
  The reference's result, entry by entry. At (b, ch, y, w) it is the argument's entry times the 0/1 value of one bit:
  the conjunction, in row-major order of the 3 × 3 window, of the table's entry at (b, y, w) being strictly greater
  than the four padded-table entries before the centre and at least the four after it, the window's entry (a, c)
  being the padded table's at (b, a + y, c + w). The padded table at (b, 1 + y, 1 + w) is the table at (b, y, w),
  so the centre too is an entry of the window. The thirty operations that compute it are read here over ANY table
  and padded table; the reference's own are substituted last.
-/
import proofs.«127351_j63196148794003_1_alg».proof.Proof.RefRun
import Idealize.ShloMosaic.Lib.KernelVsHost

noncomputable section

namespace Cert.ReferenceIdeal.Hand

open Cert.ReferenceIdeal Cert.ReferenceIdeal.Gen Cert.ReferenceIdeal.ReadP
open Idealize.ShloMosaic Idealize.ShloMosaic.ValueIdx

/-- The bit that keeps a pixel whose value is `cen`, from its 3 × 3 window `g`: strictly greater than the four
    entries before the centre in row-major order, at least the four after it. -/
def keepBitC (cen : EReal) (g : Fin 3 → Fin 3 → EReal) : BitVec 1 :=
  (IntOp.andi (IntOp.andi (IntOp.andi (IntOp.andi (IntOp.andi (IntOp.andi (IntOp.andi (IntOp.andi 1#1 (FloatOps.cmpf (F := Ideal) (φ := .f32) .ogt cen (g 0 0))) (FloatOps.cmpf (F := Ideal) (φ := .f32) .ogt cen (g 0 1))) (FloatOps.cmpf (F := Ideal) (φ := .f32) .ogt cen (g 0 2))) (FloatOps.cmpf (F := Ideal) (φ := .f32) .ogt cen (g 1 0))) (FloatOps.cmpf (F := Ideal) (φ := .f32) .oge cen (g 1 2))) (FloatOps.cmpf (F := Ideal) (φ := .f32) .oge cen (g 2 0))) (FloatOps.cmpf (F := Ideal) (φ := .f32) .oge cen (g 2 1))) (FloatOps.cmpf (F := Ideal) (φ := .f32) .oge cen (g 2 2)))

/-- The same with the centre read off the window. -/
def keepBit (g : Fin 3 → Fin 3 → EReal) : BitVec 1 := keepBitC (g 1 1) g

/-- Entry (a, c) of the 3 × 3 window at pixel (b, y, w) of a padded table. -/
abbrev windowAt (t : (⟨S4x514x514, .f32⟩ : BufTy).Contents (Elt Ideal)) (b : Fin 4) (y w : Fin 512) (a c : Fin 3) : EReal :=
  t (ix3 b (⟨a.val + y.val, by have := a.isLt; have := y.isLt; omega⟩ : Fin 514) (⟨c.val + w.val, by have := c.isLt; have := w.isLt; omega⟩ : Fin 514))

/-- A 512 × 512 view of a padded table shifted by (o1, o2), at (b, y, w): the padded table at (b, o1 + y, o2 + w). -/
theorem pad_slice (t : (⟨S4x514x514, .f32⟩ : BufTy).Contents (Elt Ideal)) (o1 o2 : Nat) (h : S4x514x514.Slices ![0, o1, o2] S4x512x512)
    (b : Fin 4) (y w : Fin 512) (h1 : o1 + y.val < 514) (h2 : o2 + w.val < 514) :
    extractStridedSlice S4x512x512 ![0, o1, o2] t h (ix3 b y w) = t (ix3 b (⟨o1 + y.val, h1⟩ : Fin 514) (⟨o2 + w.val, h2⟩ : Fin 514)) :=
  extractStridedSlice_apply _ t h _ _ (fun a => match a with
    | ⟨0, _⟩ => by show b.val = 0 + b.val; omega
    | ⟨1, _⟩ => rfl
    | ⟨2, _⟩ => rfl)

set_option maxHeartbeats 400000 in
/-- The last thirty operations over any table `p` and padded table `t`, at (b, ch, y, w). -/
theorem tail_apply (x0 : (⟨S4x84x512x512, .f32⟩ : BufTy).Contents (Elt Ideal)) (p : (⟨S4x512x512, .f32⟩ : BufTy).Contents (Elt Ideal))
    (t : (⟨S4x514x514, .f32⟩ : BufTy).Contents (Elt Ideal)) (b : Fin 4) (ch : Fin 84) (y w : Fin 512) :
    tail (F := Ideal) x0 p t (ix4 b ch y w)
      = FloatOps.mulf (F := Ideal) (x0 (ix4 b ch y w))
          (FloatOps.uitofp (F := Ideal) .f32 (keepBitC (p (ix3 b y w)) (windowAt t b y w))) := by
  have hy : y.val < 512 := y.isLt
  have hw : w.val < 512 := w.isLt
  unfold tail
  dsimp only
  simp only [mulf]
  rw [broadcastInDim_apply _ bcast_S4x1x512x512_S4x84x512x512_0_1_2_3 _ (ix4 b ch y w) (ix4 b (0 : Fin 1) y w) (fun a => match a with
    | ⟨0, _⟩ => by show b.val = if (4 : Nat) = 1 then 0 else b.val; rw [if_neg (by decide)]
    | ⟨1, _⟩ => by show 0 = if (1 : Nat) = 1 then 0 else ch.val; rw [if_pos rfl]
    | ⟨2, _⟩ => by show y.val = if (512 : Nat) = 1 then 0 else y.val; rw [if_neg (by decide)]
    | ⟨3, _⟩ => by show w.val = if (512 : Nat) = 1 then 0 else w.val; rw [if_neg (by decide)])]
  simp only [uitofp]
  rw [broadcastInDim_apply _ bcast_S4x512x512_S4x1x512x512_0_2_3 _ (ix4 b (0 : Fin 1) y w) (ix3 b y w) (fun a => match a with
    | ⟨0, _⟩ => by show b.val = if (4 : Nat) = 1 then 0 else b.val; rw [if_neg (by decide)]
    | ⟨1, _⟩ => by show y.val = if (512 : Nat) = 1 then 0 else y.val; rw [if_neg (by decide)]
    | ⟨2, _⟩ => by show w.val = if (512 : Nat) = 1 then 0 else w.val; rw [if_neg (by decide)])]
  simp only [andi, cmpf,
    broadcastInDim_apply _ bcast_S_S4x512x512 (constantI S_ 1 1#1) (ix3 b y w) ix0 (fun a => a.elim0), constantI,
    pad_slice t 0 0 slices_S4x514x514_S4x512x512_0_0_0 b y w (by omega) (by omega),
    pad_slice t 0 1 slices_S4x514x514_S4x512x512_0_0_1 b y w (by omega) (by omega),
    pad_slice t 0 2 slices_S4x514x514_S4x512x512_0_0_2 b y w (by omega) (by omega),
    pad_slice t 1 0 slices_S4x514x514_S4x512x512_0_1_0 b y w (by omega) (by omega),
    pad_slice t 1 2 slices_S4x514x514_S4x512x512_0_1_2 b y w (by omega) (by omega),
    pad_slice t 2 0 slices_S4x514x514_S4x512x512_0_2_0 b y w (by omega) (by omega),
    pad_slice t 2 1 slices_S4x514x514_S4x512x512_0_2_1 b y w (by omega) (by omega),
    pad_slice t 2 2 slices_S4x514x514_S4x512x512_0_2_2 b y w (by omega) (by omega)]
  unfold keepBitC
  rfl

/-- Inside the padding the padded table is the table: at (b, 1 + y, 1 + w) it holds the table's entry (b, y, w). -/
theorem padded_inside (p : (⟨S4x512x512, .f32⟩ : BufTy).Contents (Elt Ideal)) (z : (⟨S_, .f32⟩ : BufTy).Contents (Elt Ideal))
    (b : Fin 4) (y w : Fin 512) :
    windowAt (pad S4x514x514 ![0, 1, 1] ![0, 1, 1] ![0, 0, 0] p z pads_S4x512x512_S4x514x514_000_110_110 h_S_) b y w 1 1 = p (ix3 b y w) :=
  pad_apply_of_inside _ _ _ p z pads_S4x512x512_S4x514x514_000_110_110 h_S_ _ (ix3 b y w) (fun a => match a with
    | ⟨0, _⟩ => by show b.val = 0 + b.val * (0 + 1); omega
    | ⟨1, _⟩ => by show 1 + y.val = 1 + y.val * (0 + 1); omega
    | ⟨2, _⟩ => by show 1 + w.val = 1 + w.val * (0 + 1); omega)

/-- The reference's result at (b, ch, y, w): the argument there times the 0/1 of the kept bit of the window there. -/
theorem result_apply (pts : (⟨S4x84x512x512, .f32⟩ : BufTy).Contents (Elt Ideal)) (b : Fin 4) (ch : Fin 84) (y w : Fin 512) :
    val_main_v31 (F := Ideal) pts (ix4 b ch y w)
      = FloatOps.mulf (F := Ideal) (pts (ix4 b ch y w))
          (FloatOps.uitofp (F := Ideal) .f32 (keepBit (windowAt (val_main_v2 (F := Ideal) pts) b y w))) := by
  rw [val_eq_tail, tail_apply]
  unfold keepBit
  have hc : windowAt (val_main_v2 (F := Ideal) pts) b y w 1 1 = val_main_v1 (F := Ideal) pts (ix3 b y w) :=
    padded_inside (val_main_v1 (F := Ideal) pts) (val_main_call0_v0 (F := Ideal)) b y w
  rw [hc]

end Cert.ReferenceIdeal.Hand

end
-- ==== Proof.Ideal.MaskLaws.lean ====
/-
  The second kernel's body, entry by entry. Its stored value at (u, ch, r, w) is the input block's entry there times the
  0/1 value of one bit: the conjunction, in row-major order, of the comparisons of the loaded 34 × 514 window's entry
  (1 + r, 1 + w) with its eight neighbours (a + r, c + w) — strictly greater than the four before it, at least the four
  after it. The bit is first widened to a word and converted as a signed number; that is its value 0 or 1. The loaded
  window's entry (R, C) is the padded table block's entry (0, 32h + R, C).
-/
import proofs.«127351_j63196148794003_1_alg».proof.Proof.Ideal.MaskBody
import proofs.«127351_j63196148794003_1_alg».proof.Proof.RefMask
import Idealize.ShloMosaic.Lib.ValueLayout
import Idealize.ShloMosaic.Lib.Pipeline.Value
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.Hand (keepBit)

/-- Entry (a, c) of the 3 × 3 window at (r, w) of a loaded 34 × 514 window. -/
abbrev tileAt (x5 : FVec Ideal S34x514 .f32) (r : Fin 32) (w : Fin 512) (a c : Fin 3) : EReal :=
  x5 (ix2 (⟨a.val + r.val, by have := a.isLt; have := r.isLt; omega⟩ : Fin 34) (⟨c.val + w.val, by have := c.isLt; have := w.isLt; omega⟩ : Fin 514))

/-- A 32 × 512 view of the window shifted by (o0, o1), at (r, w): the window at (o0 + r, o1 + w). -/
theorem win_slice (x5 : FVec Ideal S34x514 .f32) (o0 o1 : Nat) (h : S34x514.Slices ![o0, o1] S32x512) (r : Fin 32) (w : Fin 512)
    (h0 : o0 + r.val < 34) (h1 : o1 + w.val < 514) :
    extractStridedSlice S32x512 ![o0, o1] x5 h (ix2 r w) = x5 (ix2 (⟨o0 + r.val, h0⟩ : Fin 34) (⟨o1 + w.val, h1⟩ : Fin 514)) :=
  extractStridedSlice_apply _ x5 h _ _ (fun a => match a with
    | ⟨0, _⟩ => rfl
    | ⟨1, _⟩ => rfl)

/-- The eight comparisons conjoined, as the body spells them over the whole 32 × 512 tile. -/
def maskVec (x5 : FVec Ideal S34x514 .f32) : IVec S32x512 1 :=
  (andi (andi (andi (andi (andi (andi (andi (andi (broadcast S32x512 1#1) (cmpf .ogt (extractStridedSlice S32x512 ![1, 1] x5 slices_S34x514_o1_1_S32x512) (extractStridedSlice S32x512 ![0, 0] x5 slices_S34x514_o0_0_S32x512))) (cmpf .ogt (extractStridedSlice S32x512 ![1, 1] x5 slices_S34x514_o1_1_S32x512) (extractStridedSlice S32x512 ![0, 1] x5 slices_S34x514_o0_1_S32x512))) (cmpf .ogt (extractStridedSlice S32x512 ![1, 1] x5 slices_S34x514_o1_1_S32x512) (extractStridedSlice S32x512 ![0, 2] x5 slices_S34x514_o0_2_S32x512))) (cmpf .ogt (extractStridedSlice S32x512 ![1, 1] x5 slices_S34x514_o1_1_S32x512) (extractStridedSlice S32x512 ![1, 0] x5 slices_S34x514_o1_0_S32x512))) (cmpf .oge (extractStridedSlice S32x512 ![1, 1] x5 slices_S34x514_o1_1_S32x512) (extractStridedSlice S32x512 ![1, 2] x5 slices_S34x514_o1_2_S32x512))) (cmpf .oge (extractStridedSlice S32x512 ![1, 1] x5 slices_S34x514_o1_1_S32x512) (extractStridedSlice S32x512 ![2, 0] x5 slices_S34x514_o2_0_S32x512))) (cmpf .oge (extractStridedSlice S32x512 ![1, 1] x5 slices_S34x514_o1_1_S32x512) (extractStridedSlice S32x512 ![2, 1] x5 slices_S34x514_o2_1_S32x512))) (cmpf .oge (extractStridedSlice S32x512 ![1, 1] x5 slices_S34x514_o1_1_S32x512) (extractStridedSlice S32x512 ![2, 2] x5 slices_S34x514_o2_2_S32x512)))

/-- At (r, w) that is the kept bit of the 3 × 3 window there. -/
theorem maskVec_apply (x5 : FVec Ideal S34x514 .f32) (r : Fin 32) (w : Fin 512) :
    maskVec x5 (ix2 r w) = keepBit (tileAt x5 r w) := by
  have hr : r.val < 32 := r.isLt
  have hw : w.val < 512 := w.isLt
  unfold maskVec keepBit
  simp only [andi, cmpf, broadcast,
    win_slice x5 1 1 slices_S34x514_o1_1_S32x512 r w (by omega) (by omega),
    win_slice x5 0 0 slices_S34x514_o0_0_S32x512 r w (by omega) (by omega),
    win_slice x5 0 1 slices_S34x514_o0_1_S32x512 r w (by omega) (by omega),
    win_slice x5 0 2 slices_S34x514_o0_2_S32x512 r w (by omega) (by omega),
    win_slice x5 1 0 slices_S34x514_o1_0_S32x512 r w (by omega) (by omega),
    win_slice x5 1 2 slices_S34x514_o1_2_S32x512 r w (by omega) (by omega),
    win_slice x5 2 0 slices_S34x514_o2_0_S32x512 r w (by omega) (by omega),
    win_slice x5 2 1 slices_S34x514_o2_1_S32x512 r w (by omega) (by omega),
    win_slice x5 2 2 slices_S34x514_o2_2_S32x512 r w (by omega) (by omega)]
  rfl

/-- The body's stored value is the input block times the 0/1 of the comparisons, spread over the channels. -/
theorem product_eq (x5 : Vec Ideal S34x514 .f32) (x38 : Vec Ideal S1x84x32x512 .f32) :
    k1_pay1 (F := Ideal) x5 x38
      = mulf x38 (broadcastTo S1x84x32x512 (shapeCast S1x1x32x512 (uitofp (F := Ideal) .f32 (maskVec x5)) shapeCasts_S32x512_S1x1x32x512)
          broadcasts_S1x1x32x512_S1x84x32x512) := by
  unfold k1_pay1
  dsimp only
  rw [shapeCast_self, shapeCast_self, sitofp_extui_eq_uitofp]
  rfl

/-- The body's stored value at (u, ch, r, w). -/
theorem product_apply (x5 : Vec Ideal S34x514 .f32) (x38 : Vec Ideal S1x84x32x512 .f32) (u : Fin 1) (ch : Fin 84) (r : Fin 32) (w : Fin 512) :
    k1_pay1 (F := Ideal) x5 x38 (ix4 u ch r w)
      = FloatOps.mulf (F := Ideal) (x38 (ix4 u ch r w)) (FloatOps.uitofp (F := Ideal) .f32 (keepBit (tileAt x5 r w))) := by
  rw [product_eq]
  show FloatOps.mulf (F := Ideal) (x38 (ix4 u ch r w))
    (broadcastTo S1x84x32x512 (shapeCast S1x1x32x512 (uitofp (F := Ideal) .f32 (maskVec x5)) shapeCasts_S32x512_S1x1x32x512)
      broadcasts_S1x1x32x512_S1x84x32x512 (ix4 u ch r w)) = _
  rw [broadcastTo_apply _ broadcasts_S1x1x32x512_S1x84x32x512 (ix4 u ch r w) (ix4 (0 : Fin 1) (0 : Fin 1) r w) (fun a => match a with
      | ⟨0, _⟩ => by show 0 = if (1 : Nat) = 1 then 0 else u.val; rw [if_pos rfl]
      | ⟨1, _⟩ => by show 0 = if (1 : Nat) = 1 then 0 else ch.val; rw [if_pos rfl]
      | ⟨2, _⟩ => by show r.val = if (32 : Nat) = 1 then 0 else r.val; rw [if_neg (by decide)]
      | ⟨3, _⟩ => by show w.val = if (512 : Nat) = 1 then 0 else w.val; rw [if_neg (by decide)]),
    shapeCast_apply _ shapeCasts_S32x512_S1x1x32x512 (ix4 (0 : Fin 1) (0 : Fin 1) r w) (ix2 r w) (by
      rw [Shape.rowMajor_val_two, Shape.rowMajor_val_four]
      show r.val * 512 + w.val = ((0 * 1 + 0) * 32 + r.val) * 512 + w.val
      omega)]
  show FloatOps.mulf (F := Ideal) (x38 (ix4 u ch r w)) (FloatOps.uitofp (F := Ideal) .f32 (maskVec x5 (ix2 r w))) = _
  rw [maskVec_apply]

/-- The loaded window's entry (R, C): the padded table block's entry (0, 32h + R, C), h the point's row-tile index. -/
theorem window1_apply (i : grid1.Coords) (x1 : Vec Ideal S1x514x514 .f32) (R : Fin 34) (C : Fin 514)
    (hR : 32 * (i 1).val + R.val < 514) :
    window1 (F := Ideal) i x1 (ix2 R C) = x1 (ix3 (0 : Fin 1) (⟨32 * (i 1).val + R.val, hR⟩ : Fin 514) C) := by
  unfold window1
  show shapeCast S514x514 (View.ld x1 rTab1) _ ((rWin1 i).idx (ix2 R C)) = _
  have hidx : (rWin1 i).idx (ix2 R C) = ix2 (⟨32 * (i 1).val + R.val, hR⟩ : Fin 514) C := by
    funext a; apply Fin.ext
    match a with
    | ⟨0, _⟩ =>
      show k1_off1 i (0 : Fin 2) + 1 * R.val = 32 * (i 1).val + R.val
      rw [k1_off1_eq]
      show 32 * (i 1).val + 1 * R.val = 32 * (i 1).val + R.val
      omega
    | ⟨1, _⟩ =>
      show k1_off1 i (1 : Fin 2) + 1 * C.val = C.val
      rw [k1_off1_eq]
      show 0 + 1 * C.val = C.val
      omega
  rw [hidx, shapeCast_1ab_ab_apply]
  show x1 (rTab1.idx (ix3 (0 : Fin 1) (⟨32 * (i 1).val + R.val, hR⟩ : Fin 514) C)) = _
  refine congrArg x1 (funext fun a => Fin.ext ?_)
  match a with
  | ⟨0, _⟩ => show 0 + 1 * 0 = 0; omega
  | ⟨1, _⟩ => show 0 + 1 * (32 * (i 1).val + R.val) = 32 * (i 1).val + R.val; omega
  | ⟨2, _⟩ => show 0 + 1 * C.val = C.val; omega

end Cert.KernelIdeal.Hand

end
-- ==== Proof.Ideal.MaskValue.lean ====
/-
  What the second region leaves in its output array: the reference's result of the argument.

  When the second region is entered the argument is as launched and the padded table's buffer holds the padding of
  what the first region left, which is the reference's padded table. At grid point (b, h) the input block's entry
  (u, ch, r, w) is the argument's at (b, ch, 32h + r, w), the padded-table block's entry (0, R, C) is the padded
  table's at (b, R, C), and the output block's entry (u, ch, r, w) is the array's at (b, ch, 32h + r, w). The body
  stores the input entry times the 0/1 of the kept bit of the 3 × 3 window of loaded entries (a + r, c + w), which
  are the padded table's at (b, a + (32h + r), c + w): the reference's result there. The 64 blocks tile the array.
-/
import proofs.«127351_j63196148794003_1_alg».proof.Proof.Ideal.TableValue
import proofs.«127351_j63196148794003_1_alg».proof.Proof.Ideal.MaskLaws
import proofs.«127351_j63196148794003_1_alg».proof.Proof.LibTransport
import proofs.«127351_j63196148794003_1_alg».proof.Proof.LibCarried

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.ReferenceIdeal.Hand (keepBit windowAt result_apply)

variable (m : (ℓ : Loc nD τ sig) → Buf (Elt Ideal) ℓ) (ρ : Dev nD → PrngReg)

/-! ## What the second region finds -/

/-- The padded table's buffer at the second region's entry: the reference's padded table of the argument. -/
theorem padded_entry (c : Dev nD) :
    B3 m ρ c (Proc.devRef .tc main_v1)
      = Cert.ReferenceIdeal.ReadP.val_main_v2 (F := Ideal) (m ((c : Thread nD τ).loc main_arg0)) := by
  have hv0 : B2 m ρ c (Proc.devRef .tc main_v0)
      = Cert.ReferenceIdeal.ReadP.val_main_v1 (F := Ideal) (m ((c : Thread nD τ).loc main_arg0)) :=
    (B2_main_v0 m ρ c).trans (table_final m ρ c)
  have hc : B2 m ρ c (Proc.devRef .tc main_c) = constantI S_ 32 0#32 := by
    show StableHlo.after hostOps1 (B1 m ρ c) (Proc.devRef .tc main_c) = _
    generalize B1 m ρ c = W1
    dsimp only [hostOps1]
    after_results
  show StableHlo.after hostOps1_1 (B2 m ρ c) (Proc.devRef .tc main_v1) = _
  unfold Cert.ReferenceIdeal.ReadP.val_main_v2 Cert.ReferenceIdeal.ReadP.val_main_call0_v0 Cert.ReferenceIdeal.ReadP.val_main_c
  generalize B2 m ρ c = W at hv0 hc ⊢
  generalize Cert.ReferenceIdeal.ReadP.val_main_v1 (F := Ideal) (m ((c : Thread nD τ).loc main_arg0)) = p at hv0 ⊢
  dsimp only [hostOps1_1]
  after_results
  simp only [Cert.Lib.Transport.ofBuf_toBuf]
  rw [hv0, hc]
  refine Cert.Lib.Carried.toBuf_eq_of_heq _ _ _ (heq_of_eq ?_)
  refine congrArg₂ (fun (a : (⟨S4x512x512, .f32⟩ : BufTy).Contents (Elt Ideal)) (b : (⟨S_, .f32⟩ : BufTy).Contents (Elt Ideal)) =>
    pad S4x514x514 ![0, 1, 1] ![0, 1, 1] ![0, 0, 0] a b pads_S4x512x512_S4x514x514_000_110_110 h_S_) ?_ ?_
  · exact Cert.Lib.Carried.ofBuf_eq_of_heq _ _ _ HEq.rfl
  · exact congrArg (sitofp .f32) (Cert.Lib.Carried.ofBuf_eq_of_heq _ _ _ HEq.rfl)

/-! ## From blocks to the array -/

/-- The three index maps over the grid: both input blocks sit at the output block's batch, the points block also at
    its row band; channel and column blocks are zero; the body's row-tile index is the output's row-band index. -/
theorem mask_idx_facts : ∀ t : Fin cfg1.N, win1_0.index t (0 : Fin 4) = win1_2.index t (0 : Fin 4)
    ∧ win1_0.index t (1 : Fin 4) = 0
    ∧ win1_0.index t (2 : Fin 4) = win1_2.index t (2 : Fin 4)
    ∧ win1_0.index t (3 : Fin 4) = 0
    ∧ win1_1.index t (0 : Fin 3) = win1_2.index t (0 : Fin 4)
    ∧ win1_1.index t (1 : Fin 3) = 0
    ∧ win1_1.index t (2 : Fin 3) = 0
    ∧ win1_2.index t (1 : Fin 4) = 0
    ∧ win1_2.index t (3 : Fin 4) = 0
    ∧ (grid1.coords t (1 : Fin 2)).val = win1_2.index t (2 : Fin 4)
    ∧ win1_2.index t (0 : Fin 4) < 4 ∧ win1_2.index t (2 : Fin 4) < 16 :=
  (by decide +kernel : ∀ t : Fin grid1.N, _)

/-- Every (batch, row band) is some point's. -/
theorem mask_idx_onto : ∀ (q0 : Fin 4) (q2 : Fin 16), ∃ t : Fin cfg1.N, win1_2.index t = ![q0.val, 0, q2.val, 0] :=
  (by decide +kernel : ∀ (q0 : Fin 4) (q2 : Fin 16), ∃ t : Fin grid1.N, win1_2.index t = ![q0.val, 0, q2.val, 0])

set_option maxHeartbeats 1000000 in
/-- What point `t` writes back is block `t` of the reference's result of the argument. -/
theorem mask_flushed (c : Dev nD) (t : Fin cfg1.N) :
    (dat1 (E1 m ρ) c).flushed 2 t = ((cfg1.win 2).blk t).view.read (Elt Ideal)
      (Cert.ReferenceIdeal.ReadP.val_main_v31 (F := Ideal) (m ((c : Thread nD τ).loc main_arg0))) := by
  show (cfg1.win 2).cut (grid1.coords t) ((dat1 (E1 m ρ) c).after 2 t) = _
  rw [after1_2]
  unfold out1_2
  rw [View.canon_unit_zero hz4]
  simp only [View.ld_unit_zero (S := S1x84x32x512) hz4]
  obtain ⟨e0, e1, e2, e3, e4, e5, e6, e7, e8, e9, e10, e11⟩ := mask_idx_facts t
  obtain ⟨pts, hpts⟩ : ∃ pts : (⟨Cert.ReferenceIdeal.S4x84x512x512, .f32⟩ : BufTy).Contents (Elt Ideal),
      pts = m ((c : Thread nD τ).loc main_arg0) := ⟨_, rfl⟩
  rw [← hpts]
  -- the two arrays the region reads, as it finds them
  have harg : E1 m ρ c (Pipeline.arrRef spec1 0) = pts := (B3_main_arg0 m ρ c).trans hpts.symm
  have hpad : E1 m ρ c (Pipeline.arrRef spec1 1) = Cert.ReferenceIdeal.ReadP.val_main_v2 (F := Ideal) pts :=
    (padded_entry m ρ c).trans (by rw [hpts])
  generalize hT : Cert.ReferenceIdeal.ReadP.val_main_v2 (F := Ideal) pts = T at hpad
  have hres := fun (b : Fin 4) (ch : Fin 84) (y w : Fin 512) => result_apply pts b ch y w
  rw [hT] at hres
  generalize hG : Cert.ReferenceIdeal.ReadP.val_main_v31 (F := Ideal) pts = G at hres ⊢
  generalize hP : k1_pay1 (F := Ideal) (window1 (grid1.coords t) (iblk1 (E1 m ρ) c 1 t)) (iblk1 (E1 m ρ) c 0 t) = Pf
  funext y
  obtain ⟨u, ch, r, w, rfl⟩ : ∃ (u : Fin 1) (ch : Fin 84) (r : Fin 32) (w : Fin 512), y = ix4 u ch r w :=
    ⟨y 0, y 1, y 2, y 3, eq_ix4 y⟩
  have hr : r.val < 32 := r.isLt
  have hw : w.val < 512 := w.isLt
  have hyemb : (((cfg1.win 2).blk t).view.emb (ix4 u ch r w) : S4x84x512x512.Idx) = ix4 (⟨win1_2.index t (0 : Fin 4), e10⟩ : Fin 4) ch (⟨win1_2.index t (2 : Fin 4) * 32 + r.val, by omega⟩ : Fin 512) w := by
    funext a; apply Fin.ext
    match a with
    | ⟨0, _⟩ => show win1_2.index t (0 : Fin 4) * 1 + 1 * u.val = win1_2.index t (0 : Fin 4); have := u.isLt; omega
    | ⟨1, _⟩ => show win1_2.index t (1 : Fin 4) * 84 + 1 * ch.val = ch.val; omega
    | ⟨2, _⟩ => show win1_2.index t (2 : Fin 4) * 32 + 1 * r.val = win1_2.index t (2 : Fin 4) * 32 + r.val; omega
    | ⟨3, _⟩ => show win1_2.index t (3 : Fin 4) * 512 + 1 * w.val = w.val; omega
  have hemb0 : (((cfg1.win 0).blk t).view.emb (ix4 u ch r w) : S4x84x512x512.Idx) = ix4 (⟨win1_2.index t (0 : Fin 4), e10⟩ : Fin 4) ch (⟨win1_2.index t (2 : Fin 4) * 32 + r.val, by omega⟩ : Fin 512) w := by
    funext a; apply Fin.ext
    match a with
    | ⟨0, _⟩ => show win1_0.index t (0 : Fin 4) * 1 + 1 * u.val = win1_2.index t (0 : Fin 4); have := u.isLt; omega
    | ⟨1, _⟩ => show win1_0.index t (1 : Fin 4) * 84 + 1 * ch.val = ch.val; omega
    | ⟨2, _⟩ => show win1_0.index t (2 : Fin 4) * 32 + 1 * r.val = win1_2.index t (2 : Fin 4) * 32 + r.val; omega
    | ⟨3, _⟩ => show win1_0.index t (3 : Fin 4) * 512 + 1 * w.val = w.val; omega
  have hemb1 : ∀ (R C : Fin 514), (((cfg1.win 1).blk t).view.emb (ix3 (0 : Fin 1) R C) : S4x514x514.Idx) = ix3 (⟨win1_2.index t (0 : Fin 4), e10⟩ : Fin 4) R C := by
    intro R C
    funext a; apply Fin.ext
    match a with
    | ⟨0, _⟩ => show win1_1.index t (0 : Fin 3) * 1 + 1 * 0 = win1_2.index t (0 : Fin 4); omega
    | ⟨1, _⟩ => show win1_1.index t (1 : Fin 3) * 514 + 1 * R.val = R.val; omega
    | ⟨2, _⟩ => show win1_1.index t (2 : Fin 3) * 514 + 1 * C.val = C.val; omega
  -- the input block's entry is the argument's
  have h0 : iblk1 (E1 m ρ) c 0 t (ix4 u ch r w) = pts (ix4 (⟨win1_2.index t (0 : Fin 4), e10⟩ : Fin 4) ch (⟨win1_2.index t (2 : Fin 4) * 32 + r.val, by omega⟩ : Fin 512) w) := by
    unfold iblk1
    rw [View.read_apply, cast_eq]
    show E1 m ρ c (Pipeline.arrRef spec1 0) (((cfg1.win 0).blk t).view.emb (ix4 u ch r w)) = _
    rw [hemb0, harg]
  -- the loaded window's 3 × 3 tile is the padded table's window
  have hTile : tileAt (window1 (F := Ideal) (grid1.coords t) (iblk1 (E1 m ρ) c 1 t)) r w = windowAt T (⟨win1_2.index t (0 : Fin 4), e10⟩ : Fin 4) (⟨win1_2.index t (2 : Fin 4) * 32 + r.val, by omega⟩ : Fin 512) w := by
    funext a c'
    have ha : a.val < 3 := a.isLt
    have hc' : c'.val < 3 := c'.isLt
    show window1 (F := Ideal) (grid1.coords t) (iblk1 (E1 m ρ) c 1 t)
        (ix2 (⟨a.val + r.val, by omega⟩ : Fin 34) (⟨c'.val + w.val, by omega⟩ : Fin 514))
      = T (ix3 (⟨win1_2.index t (0 : Fin 4), e10⟩ : Fin 4) (⟨a.val + (win1_2.index t (2 : Fin 4) * 32 + r.val), by omega⟩ : Fin 514) (⟨c'.val + w.val, by omega⟩ : Fin 514))
    rw [window1_apply (grid1.coords t) (iblk1 (E1 m ρ) c 1 t) _ _ (by show 32 * (grid1.coords t (1 : Fin 2)).val + (a.val + r.val) < 514; omega)]
    unfold iblk1
    rw [View.read_apply, cast_eq]
    show E1 m ρ c (Pipeline.arrRef spec1 1) (((cfg1.win 1).blk t).view.emb (ix3 (0 : Fin 1) _ _)) = _
    rw [hemb1, hpad]
    refine congrArg T (funext fun d => Fin.ext ?_)
    match d with
    | ⟨0, _⟩ => rfl
    | ⟨1, _⟩ => show 32 * (grid1.coords t (1 : Fin 2)).val + (a.val + r.val) = a.val + (win1_2.index t (2 : Fin 4) * 32 + r.val); omega
    | ⟨2, _⟩ => rfl
  rw [View.read_apply, cast_eq]
  show Pf (ix4 u ch r w) = G (((cfg1.win 2).blk t).view.emb (ix4 u ch r w))
  rw [hyemb, ← hP, hres,
    product_apply (window1 (F := Ideal) (grid1.coords t) (iblk1 (E1 m ρ) c 1 t)) (iblk1 (E1 m ρ) c 0 t) u ch r w, h0, hTile]

/-- An index of the result is in point `t`'s block iff each coordinate is in the block's range on its axis. -/
theorem mask_mem_blk (t : Fin cfg1.N) (i : S4x84x512x512.Idx) :
    i ∈ ((cfg1.win 2).blk t).view.set ↔ ∀ a : Fin 4, win1_2.index t a * S1x84x32x512.size a ≤ (i a).val
      ∧ (i a).val < win1_2.index t a * S1x84x32x512.size a + S1x84x32x512.size a := by
  show i ∈ ((View.whole main_v2).slice (win1_2.rect t)).set ↔ _
  rw [View.set_slice_whole, Rect.mem_set_unit]
  exact Iff.rfl

/-- Every index of the result is in the block of the point at its batch and row band. -/
theorem mask_cover (i : S4x84x512x512.Idx) :
    ∃ t : Fin cfg1.N, (cfg1.win 2).flush t = true ∧ i ∈ ((cfg1.win 2).blk t).view.set := by
  have hi0 : (i 0).val < 4 := (i 0).isLt
  have hi1 : (i 1).val < 84 := (i 1).isLt
  have hi2 : (i 2).val < 512 := (i 2).isLt
  have hi3 : (i 3).val < 512 := (i 3).isLt
  obtain ⟨t, ht⟩ := mask_idx_onto ⟨(i 0).val, hi0⟩ ⟨(i 2).val / 32, by omega⟩
  have q0 : win1_2.index t (0 : Fin 4) = (i 0).val := congrFun ht 0
  have q1 : win1_2.index t (1 : Fin 4) = 0 := congrFun ht 1
  have q2 : win1_2.index t (2 : Fin 4) = (i 2).val / 32 := congrFun ht 2
  have q3 : win1_2.index t (3 : Fin 4) = 0 := congrFun ht 3
  refine ⟨t, flush1_2 t, ?_⟩
  rw [mask_mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 84 ≤ (i 1).val ∧ (i 1).val < win1_2.index t (1 : Fin 4) * 84 + 84; omega
  | ⟨2, _⟩ => show win1_2.index t (2 : Fin 4) * 32 ≤ (i 2).val ∧ (i 2).val < win1_2.index t (2 : Fin 4) * 32 + 32; omega
  | ⟨3, _⟩ => show win1_2.index t (3 : Fin 4) * 512 ≤ (i 3).val ∧ (i 3).val < win1_2.index t (3 : Fin 4) * 512 + 512; omega

/-- After the second region its output array is the reference's result of the argument. -/
theorem mask_final (c : Dev nD) :
    (dat1 (E1 m ρ) c).arrAt 2 cfg1.N
      = Cert.ReferenceIdeal.ReadP.val_main_v31 (F := Ideal) (m ((c : Thread nD τ).loc main_arg0)) :=
  (dat1 (E1 m ρ) c).arrAt_eq_of_cover 2 _ (fun t _ => mask_flushed m ρ c t) mask_cover

/-- The result buffer at the end of the program is the reference's result of the argument. -/
theorem result_final (c : Dev nD) :
    B4 m ρ c (Proc.devRef .tc main_v2)
      = Cert.ReferenceIdeal.ReadP.val_main_v31 (F := Ideal) (m ((c : Thread nD τ).loc main_arg0)) :=
  (B4_main_v2 m ρ c).trans (mask_final m ρ c)

end Cert.KernelIdeal.Hand

end
-- ==== Proof.lean ====
/-
  Peak non-maximum suppression on a [4, 84, 512, 512] array, as two kernels with a zero padding between them, against
  the same computation written with whole-array operations.

  Both programs first take, at every pixel (b, y, w), the maximum over the first 80 channels, started from minus
  infinity; pad that table by one zero row and column on every side; keep a pixel when its maximum is strictly greater
  than the four entries of its 3 × 3 padded neighbourhood that come before the centre in row-major order and at least
  the four that come after; and multiply every channel of the argument by the 0/1 value of that bit. The kernels do it
  block by block: the first over 32 blocks of 64 rows, the second over 64 blocks of 32 rows, reading for each block a
  34-row window of the padded table. A maximum is determined by what lies above it, so the two tables agree whatever
  order the maxima are taken in; the 3 × 3 comparisons are then the same comparisons of the same numbers in the same
  order; the bit's value is 0 or 1 whether it is converted directly or first widened to a word. No arithmetic law of
  the extended reals is used, so the precondition is never opened.

  The three frames: each program terminates without a fault and leaves its argument as launched. The two kernels'
  programs are run region by region (every buffer's contents named at each boundary); the reference is a straight
  line of host operations. The ideal pass rewrote nothing, so the preservation claim is trivially true.
-/
import proofs.«127351_j63196148794003_1_alg».proof.Defs
import proofs.«127351_j63196148794003_1_alg».proof.Proof.Gen.Kernel
import proofs.«127351_j63196148794003_1_alg».proof.Proof.Gen.KernelIdeal
import proofs.«127351_j63196148794003_1_alg».proof.Proof.Gen.ReferenceIdeal
import proofs.«127351_j63196148794003_1_alg».proof.Proof.Gen.Pre_finite_inputs
import proofs.«127351_j63196148794003_1_alg».proof.Proof.Bits.Run
import proofs.«127351_j63196148794003_1_alg».proof.Proof.Ideal.MaskValue
import proofs.«127351_j63196148794003_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its argument as launched. -/
theorem frame_kernel : Cert.frame_Kernel := fun m ρ _ =>
  (θ_run Cert.Kernel.defs _ _).mono (fun _ h c => (h c).2) (Cert.Kernel.Hand.run (F := Bits) m ρ)

/-- So does its reading over the extended reals, -/
theorem frame_kernelIdeal : Cert.frame_KernelIdeal := fun m ρ _ =>
  (θ_run Cert.KernelIdeal.defs _ _).mono (fun _ h c => (h c).2) (Cert.KernelIdeal.Hand.run (F := Ideal) m ρ)

/-- and so does the reference. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealized kernel is the kernel's own text: nothing was rewritten. -/
theorem preserves : Cert.preserves_Kernel_KernelIdeal := trivial

/-- Over the extended reals, from memories agreeing on the argument, both programs end with the same result: the
    kernels' result buffer ends at the reference's last stage of the argument, entry by entry. -/
theorem algebraic : Cert.algebraic_KernelIdeal_ReferenceIdeal := by
  intro m ρ m' ρ' _ hagree
  refine ⟨fun c => Cert.KernelIdeal.Hand.B4 m ρ c (Proc.devRef .tc Cert.KernelIdeal.main_v2),
    Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [hagree c]
  exact (Cert.KernelIdeal.Hand.result_final m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
